-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) (main_arg2 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S1x128x1024 : Shape := ⟨3, ![1, 128, 1024]⟩
abbrev S1x2048x1024 : Shape := ⟨3, ![1, 2048, 1024]⟩
abbrev S2048x2048 : Shape := ⟨2, ![2048, 2048]⟩
abbrev S1x2048 : Shape := ⟨2, ![1, 2048]⟩
abbrev S128x1024 : Shape := ⟨2, ![128, 1024]⟩
abbrev S2048x1024 : Shape := ⟨2, ![2048, 1024]⟩
abbrev S128x2048 : Shape := ⟨2, ![128, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .bf16⟩
  | .hbm, ⟨4, _⟩ => ⟨S8x2048x1024, .bf16⟩
  | .hbm, ⟨5, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x128x1024, .f32⟩
  | .local _ .vmem, ⟨7, _⟩ => ⟨S1x128x1024, .f32⟩
  | .local _ .vmem, ⟨8, _⟩ => ⟨S2048x2048, .f32⟩
  | .local _ .vmem, ⟨9, _⟩ => ⟨S1x2048, .f32⟩
  | .local _ .vmem, ⟨10, _⟩ => ⟨S1x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg2 : BitVec 32 := BitVec.ofNat 32 (i 2).val
  let c128_i32 : BitVec 32 := 128#32
  let v0 : BitVec 32 := Scalar.muli arg2 c128_i32
  let v1 : BitVec 32 := v0
  let v19 : Index := Scalar.indexCast v1
  let c0_10 : Index := 0#32
  ![v19.toNat, 0]
def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg2 : BitVec 32 := BitVec.ofNat 32 (i 2).val
  let c128_i32 : BitVec 32 := 128#32
  let v0 : BitVec 32 := Scalar.muli arg2 c128_i32
  let v1 : BitVec 32 := v0
  let v13 : Index := Scalar.indexCast v1
  let c0 : Index := 0#32
  ![v13.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c15_i32 : BitVec 32 := 15#32
  let v1 : BitVec 32 := Scalar.select v0 arg2 c15_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  h_S128x2048 : 0 < S128x2048.numel
  shapeCasts_S128x2048_S128x2048 : S128x2048.ShapeCasts S128x2048
  reduces_S128x2048_S2048 : S128x2048.Reduces [0] S2048
  shapeCasts_S2048_S1x2048 : S2048.ShapeCasts S1x2048
  broadcasts_S1x2048_S128x2048 : S1x2048.Broadcasts S128x2048
  shapeCasts_S128x1024_S1x128x1024 : S128x1024.ShapeCasts S1x128x1024
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  k0_mult1_dvd : ∀ i : grid0.Coords, 128 ∣ (k0_mult1 i).toNat
  k0_off1_inb : ∀ i : grid0.Coords, ∀ (k0_h2 : k0_cond2 i = 1#1), ∀ a, (k0_off1 i) a + S128x2048.size a ≤ S2048x2048.size a
  k0_off2_inb : ∀ i : grid0.Coords, ∀ (k0_h3 : k0_cond3 i = 1#1), ∀ a, (k0_off2 i) a + S128x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S8x2048x1024.size a
  hwx0_3 : ∀ i : grid0.Coords, EltTy.bits .f32 = 32 ∨ (Rect.block (s := S8x2048x1024) S1x128x1024.size (cc0_transform_3 i) (hinb0_3 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KBRuns.lean ====
/-
  The grid of the fused kernel has 8 · 2 · 16 = 256 points, visited batch by batch; within a batch the
  first 16 points (the first pass) compute one 128-row tile of scores each and fold it into the running
  column maximum and normaliser, the last 16 (the second pass) normalise one tile each and multiply it by
  the value block.  Point `t` is in the first pass iff `t mod 32 < 16`, and it is the batch's first point
  iff `t mod 32 = 0`.  This module decides those three facts over the grid, says where the output window
  is idle and not written back (the whole first pass), and names the memrefs the body is called with.
-/
import proofs.«152487_j11081015624289_2_alg».proof.Proof.Gen.Kernel.Frame
import proofs.«152487_j11081015624289_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The body's first branch (reset the running maximum to −∞ and the normaliser to 0): first pass and tile 0. -/
abbrev condA (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The second branch (the first pass's work). -/
abbrev cond2 (i : grid0.Coords) : Prop := k0_cond2 i = 1#1
/-- The third branch (the second pass's work). -/
abbrev cond3 (i : grid0.Coords) : Prop := k0_cond3 i = 1#1

theorem hcondA : ∀ t : Fin cfg0.N, condA (grid0.coords t) ↔ t.val % 32 = 0 :=
  (by decide +kernel : ∀ t : Fin grid0.N, condA (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ 16 ≤ t.val % 32 :=
  (by decide +kernel : ∀ t : Fin grid0.N, cond3 (grid0.coords t) ↔ 16 ≤ t.val % 32)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- In the first pass the body stores nothing into the output window … -/
theorem idleAt0_3 : ∀ t : Fin cfg0.N, ¬cond3 (grid0.coords t) → cfg0.idle 3 (grid0.coords t) = true := by decide +kernel
/-- … and the pipeline does not write its block back there. -/
theorem noFlush0_3 : ∀ t : Fin cfg0.N, ¬cond3 (grid0.coords t) → (cfg0.win 3).flush t = false := by decide +kernel
/-- In the second pass the output window is live. -/
theorem liveAt0_3 : ∀ t : Fin cfg0.N, cond3 (grid0.coords t) → cfg0.idle 3 (grid0.coords t) = false := by decide +kernel

/-! ## The memrefs the body is called with -/

abbrev ms0_0 (t : Fin cfg0.N) : Memref sig .tc .vmem S1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .f32 := win0_3.stage (cfg0.slots t 3)
abbrev hs0_3 (t : Fin cfg0.N) : (ms0_3 t).IsWhole := hstage0_3 ((cfg0.slots t 3).cast nbuf0_3)
/-- The three scratch buffers: the score matrix of the current batch, the running column maximum, the running normaliser. -/
abbrev scM0_0 : Memref sig .tc .vmem S2048x2048 .f32 := Memref.whole cc0_scratch0
abbrev scM0_1 : Memref sig .tc .vmem S1x2048 .f32 := Memref.whole cc0_scratch1
abbrev scM0_2 : Memref sig .tc .vmem S1x2048 .f32 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.KBState.lean ====
/-
  What the kernel carries from grid point to grid point, named.  Within a batch the first pass visits the
  sixteen 128-row tiles of the score matrix in order.  `sTile t` is the tile computed at a first-pass point
  `t`; `mlAt n` is the pair (running column maximum, running normaliser) after point `n`: reset to (−∞, 0) before
  a batch's first tile, updated by each first-pass point, untouched by the second pass.  `out3 t` is the output
  tile a second-pass point computes from the score tile stored sixteen points earlier, the final maximum and
  normaliser and the value block.  `SInv n S` says the score scratch holds, after point `n`, every tile the
  first-pass points of the current batch have stored so far.
-/
import proofs.«152487_j11081015624289_2_alg».proof.Proof.KBRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The score tile a first-pass point computes from its query block and the batch's key block. -/
def sTile (c : Dev nD) (t : Fin cfg0.N) : FVec F S128x2048 .f32 := k0_pay4 (iblk m c 0 t) (iblk m c 1 t)

/-- One first-pass update of (running maximum, running normaliser) at point `t`. -/
def mlStep (c : Dev nD) (t : Fin cfg0.N) (p : Vec F S1x2048 .f32 × Vec F S1x2048 .f32) : Vec F S1x2048 .f32 × Vec F S1x2048 .f32 :=
  (k0_pay7 (iblk m c 0 t) (iblk m c 1 t) p.1, k0_pay6 (iblk m c 0 t) (iblk m c 1 t) p.1 p.1 p.2)

/-- (running maximum, running normaliser) after point `n`. -/
def mlAt (c : Dev nD) : (n : ℕ) → n < cfg0.N → Vec F S1x2048 .f32 × Vec F S1x2048 .f32
  | 0, hn => mlStep m c ⟨0, hn⟩ (k0_pay1, k0_pay2)
  | n + 1, hn =>
    if (n + 1) % 32 < 16 then
      mlStep m c ⟨n + 1, hn⟩ (if (n + 1) % 32 = 0 then (k0_pay1, k0_pay2) else mlAt c n (Nat.lt_of_succ_lt hn))
    else mlAt c n (Nat.lt_of_succ_lt hn)

theorem mlAt_first (c : Dev nD) (t : Fin cfg0.N) (h : t.val % 32 = 0) :
    mlAt m c t.val t.isLt = mlStep m c t (k0_pay1, k0_pay2) := by
  obtain ⟨n, hn⟩ := t
  cases n with
  | zero => rfl
  | succ n =>
    have h' : (n + 1) % 32 = 0 := h
    show (if (n + 1) % 32 < 16 then _ else _) = _
    rw [if_pos (by omega), if_pos h']

theorem mlAt_pass1 (c : Dev nD) (t : Fin cfg0.N) (h0 : t.val % 32 ≠ 0) (h : t.val % 32 < 16) :
    mlAt m c t.val t.isLt = mlStep m c t (mlAt m c (t.val - 1) (Nat.lt_of_le_of_lt (Nat.sub_le _ _) t.isLt)) := by
  obtain ⟨n, hn⟩ := t
  cases n with
  | zero => exact absurd (Nat.zero_mod _) h0
  | succ n =>
    have h0' : ¬ (n + 1) % 32 = 0 := h0
    have h' : (n + 1) % 32 < 16 := h
    show (if (n + 1) % 32 < 16 then _ else _) = _
    rw [if_pos h', if_neg h0']
    rfl

theorem mlAt_pass2 (c : Dev nD) (t : Fin cfg0.N) (h : 16 ≤ t.val % 32) :
    mlAt m c t.val t.isLt = mlAt m c (t.val - 1) (Nat.lt_of_le_of_lt (Nat.sub_le _ _) t.isLt) := by
  obtain ⟨n, hn⟩ := t
  cases n with
  | zero => exact absurd h (by show ¬ 16 ≤ 0 % 32; omega)
  | succ n =>
    have h' : ¬ (n + 1) % 32 < 16 := by have : 16 ≤ (n + 1) % 32 := h; omega
    show (if (n + 1) % 32 < 16 then _ else _) = _
    rw [if_neg h']
    rfl

/-- The first-pass point that stored the score tile a second-pass point reads: sixteen points earlier. -/
def tileOf (t : Fin cfg0.N) : Fin cfg0.N := ⟨t.val - 16, Nat.lt_of_le_of_lt (Nat.sub_le _ _) t.isLt⟩

/-- The output tile of a second-pass point. -/
def out3 (c : Dev nD) (t : Fin cfg0.N) : Vec F S1x128x1024 .f32 :=
  k0_pay8 (sTile m c (tileOf t)) (mlAt m c t.val t.isLt).1 (mlAt m c t.val t.isLt).2 (iblk m c 2 t)

/-- After point `n` the score scratch holds the tile of every first-pass point of `n`'s batch up to `n`. -/
def SInv (c : Dev nD) (n : ℕ) (S : Vec F S2048x2048 .f32) : Prop :=
  ∀ t' : Fin cfg0.N, t'.val ≤ n → t'.val / 32 = n / 32 → (h : t'.val % 32 < 16) → ∀ (r : Fin 128) (k : Fin 2048),
    S (ix2 (⟨128 * (t'.val % 32) + r.val, by omega⟩ : Fin 2048) k) = sTile m c t' (ix2 r k)

end Cert.Kernel.Body

end
-- ==== Proof.KBDat.lean ====
/-
  The proof data of the fused kernel's one pipeline.  After the body at point `t` every input's staging
  buffer holds its block; the output's holds `out3 t` (consulted at second-pass points only: in the first
  pass the window is idle and handed back untouched); the region's invariant says, after point `n`, that the
  score scratch satisfies `SInv n` and the two row scratches hold `mlAt n`.
-/
import proofs.«152487_j11081015624289_2_alg».proof.Proof.KBState

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The region's invariant before position `n`: before the first point every scratch buffer holds anything; afterwards the
    score scratch holds contents satisfying `SInv` and the row scratches the running maximum and normaliser. -/
def PhiS (c : Dev nD) : (n : ℕ) → n ≤ cfg0.N → sProp 𝕄
  | 0, _ => Pipeline.ΦA spec0 c
  | n + 1, hn => iprop(iprop((∃ S, iprop(⌜SInv m c n S⌝ ∗ owns (c : Thread nD τ) scM0_0 fullShare S)) ∗ owns (c : Thread nD τ) scM0_1 fullShare (mlAt m c n hn).1 ∗ owns (c : Thread nD τ) scM0_2 fullShare (mlAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ S, iprop(⌜SInv m c n S⌝ ∗ owns (c : Thread nD τ) scM0_0 fullShare S)) ∗ owns (c : Thread nD τ) scM0_1 fullShare (mlAt m c n hn).1 ∗ owns (c : Thread nD τ) scM0_2 fullShare (mlAt m c n hn).2) ∗ (∃ r, prngReg c r)) := rfl

theorem PhiS_pos (c : Dev nD) (n : ℕ) (h : n ≤ cfg0.N) (hz : n ≠ 0) :
    PhiS m c n h = iprop(iprop((∃ S, iprop(⌜SInv m c (n - 1) S⌝ ∗ owns (c : Thread nD τ) scM0_0 fullShare S)) ∗ owns (c : Thread nD τ) scM0_1 fullShare (mlAt m c (n - 1) (by omega)).1 ∗ owns (c : Thread nD τ) scM0_2 fullShare (mlAt m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Body

end
-- ==== Proof.KBRunB.lean ====
/-
  The body run once in the case: first pass, not the batch's first tile.  The inputs' staging buffers hold their blocks, the output's
  buffer some contents the body does not touch, the three scratch buffers known contents; the run ends with
  the inputs and the output's buffer as they were and each scratch buffer at its contents overwritten by a
  list of stores, which the run finds.
-/
import proofs.«152487_j11081015624289_2_alg».proof.Proof.KBRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the three scratch buffers (last first), with the proof that the body runs to a
    continuation holding every buffer so. -/
noncomputable def kernelRun0_B (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : ¬condA i) (hc2 : cond2 i) (hc3 : ¬cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32) :
    Σ' (LS0 : List (View.Piece (Elt F) S2048x2048 .f32)) (LS1 : List (View.Piece (Elt F) S1x2048 .f32)), { LS2 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare y3
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexact HS0
    isplitl [HS1]; · iexact HS1
    iexact HS2

end Cert.Kernel.Body

end
-- ==== Proof.KBRunA.lean ====
/-
  The body run once in the case: first pass, the batch's first tile (the running maximum and normaliser are reset first).  The inputs' staging buffers hold their blocks, the output's
  buffer some contents the body does not touch, the three scratch buffers known contents; the run ends with
  the inputs and the output's buffer as they were and each scratch buffer at its contents overwritten by a
  list of stores, which the run finds.
-/
import proofs.«152487_j11081015624289_2_alg».proof.Proof.KBRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the three scratch buffers (last first), with the proof that the body runs to a
    continuation holding every buffer so. -/
noncomputable def kernelRun0_A (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : condA i) (hc2 : cond2 i) (hc3 : ¬cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32) :
    Σ' (LS0 : List (View.Piece (Elt F) S2048x2048 .f32)) (LS1 : List (View.Piece (Elt F) S1x2048 .f32)), { LS2 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare y3
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexact HS0
    isplitl [HS1]; · iexact HS1
    iexact HS2

end Cert.Kernel.Body

end
-- ==== Proof.KBRunC.lean ====
/-
  The body run once in the case: second pass.  The inputs' staging buffers hold their blocks, the output's
  anything, the three scratch buffers known contents; the run ends with the inputs and the scratch buffers
  as they were and the output's buffer overwritten by a list of stores, which the run finds.
-/
import proofs.«152487_j11081015624289_2_alg».proof.Proof.KBRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first), with the proof that the body runs to a
    continuation holding every buffer so. -/
noncomputable def kernelRun0_C (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : ¬condA i) (hc2 : ¬cond2 i) (hc3 : cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) :
    { L3 : List (View.Piece (Elt F) S1x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Body

end
-- ==== Proof.KBPieces.lean ====
/-
  What each case of the body leaves in each buffer, as the body's payloads of the buffers' contents before the
  point: a load of a whole staging or scratch buffer reads its contents, a store of a whole buffer leaves its
  payload, and a row scratch reset and read back within the point reads the reset value.
-/
import proofs.«152487_j11081015624289_2_alg».proof.Proof.KBRunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- One store through the whole-buffer rectangle, last, leaves its payload whatever came before. -/
theorem read_writes_whole {S : Shape} {e : EltTy} (v : View sig .tc .vmem S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

section
variable (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole) (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32)

/-! ## First pass, not the batch's first tile -/

theorem pieceB_S (hcA : ¬condA i) (hc2 : cond2 i) (hc3 : ¬cond3 i) :
    (kernelRun0_B c i arg3 harg3 arg4 harg4 arg5 harg5 arg6 harg6 arg7 harg7 arg8 harg8 arg9 harg9 hcA hc2 hc3 x0 x1 x2 xs0 xs1 xs2 y3).1 = [⟨Rect.unit (s := S2048x2048) (k0_off1 i) S128x2048.size (k0_off1_inb i hc2), k0_pay4 x0 x1⟩] := by
  unfold kernelRun0_B; dsimp only
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceB_m (hcA : ¬condA i) (hc2 : cond2 i) (hc3 : ¬cond3 i) :
    arg8.view.read (Elt F) (arg8.view.writes (Elt F) (harg8.unread xs1) (kernelRun0_B c i arg3 harg3 arg4 harg4 arg5 harg5 arg6 harg6 arg7 harg7 arg8 harg8 arg9 harg9 hcA hc2 hc3 x0 x1 x2 xs0 xs1 xs2 y3).2.1) = k0_pay7 x0 x1 xs1 := by
  unfold kernelRun0_B; dsimp only
  rw [read_writes_whole _ _ hz2]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceB_l (hcA : ¬condA i) (hc2 : cond2 i) (hc3 : ¬cond3 i) :
    arg9.view.read (Elt F) (arg9.view.writes (Elt F) (harg9.unread xs2) (kernelRun0_B c i arg3 harg3 arg4 harg4 arg5 harg5 arg6 harg6 arg7 harg7 arg8 harg8 arg9 harg9 hcA hc2 hc3 x0 x1 x2 xs0 xs1 xs2 y3).2.2.1) = k0_pay6 x0 x1 xs1 xs1 xs2 := by
  unfold kernelRun0_B; dsimp only
  rw [read_writes_whole _ _ hz2]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

/-! ## First pass, the batch's first tile -/

theorem v25_eq (arg8 : Memref sig .tc .vmem S1x2048 .f32) : kernelRun0_A.sl.v25 (F := F) c arg8 = k0_pay1 := by
  unfold kernelRun0_A.sl.v25 kernelRun0_A.sl.HS1_1
  exact View.readCov_unit_zero _ hz2 _ _
theorem v30_eq (arg9 : Memref sig .tc .vmem S1x2048 .f32) : kernelRun0_A.sl.v30 (F := F) c arg9 = k0_pay2 := by
  unfold kernelRun0_A.sl.v30 kernelRun0_A.sl.HS2_1
  exact View.readCov_unit_zero _ hz2 _ _

theorem pieceA_S (hcA : condA i) (hc2 : cond2 i) (hc3 : ¬cond3 i) :
    (kernelRun0_A c i arg3 harg3 arg4 harg4 arg5 harg5 arg6 harg6 arg7 harg7 arg8 harg8 arg9 harg9 hcA hc2 hc3 x0 x1 x2 xs0 xs1 xs2 y3).1 = [⟨Rect.unit (s := S2048x2048) (k0_off1 i) S128x2048.size (k0_off1_inb i hc2), k0_pay4 x0 x1⟩] := by
  unfold kernelRun0_A; dsimp only
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceA_m (hcA : condA i) (hc2 : cond2 i) (hc3 : ¬cond3 i) :
    arg8.view.read (Elt F) (arg8.view.writes (Elt F) (harg8.unread xs1) (kernelRun0_A c i arg3 harg3 arg4 harg4 arg5 harg5 arg6 harg6 arg7 harg7 arg8 harg8 arg9 harg9 hcA hc2 hc3 x0 x1 x2 xs0 xs1 xs2 y3).2.1) = k0_pay7 x0 x1 k0_pay1 := by
  unfold kernelRun0_A; dsimp only
  rw [read_writes_whole _ _ hz2, v25_eq]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceA_l (hcA : condA i) (hc2 : cond2 i) (hc3 : ¬cond3 i) :
    arg9.view.read (Elt F) (arg9.view.writes (Elt F) (harg9.unread xs2) (kernelRun0_A c i arg3 harg3 arg4 harg4 arg5 harg5 arg6 harg6 arg7 harg7 arg8 harg8 arg9 harg9 hcA hc2 hc3 x0 x1 x2 xs0 xs1 xs2 y3).2.2.1) = k0_pay6 x0 x1 k0_pay1 k0_pay1 k0_pay2 := by
  unfold kernelRun0_A; dsimp only
  rw [read_writes_whole _ _ hz2, v25_eq, v30_eq]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

/-! ## Second pass -/

theorem pieceC_o (hcA : ¬condA i) (hc2 : ¬cond2 i) (hc3 : cond3 i) (f : arg6.view.ty.Contents (Elt F)) :
    arg6.view.read (Elt F) (arg6.view.writes (Elt F) f (kernelRun0_C c i arg3 harg3 arg4 harg4 arg5 harg5 arg6 harg6 arg7 harg7 arg8 harg8 arg9 harg9 hcA hc2 hc3 x0 x1 x2 xs0 xs1 xs2).1)
      = k0_pay8 (View.readAt (Elt F) arg7.view (Rect.unit (s := S2048x2048) (k0_off2 i) S128x2048.size (k0_off2_inb i hc3)).toLoadRect (harg7.unread xs0)) xs1 xs2 x2 := by
  unfold kernelRun0_C; dsimp only
  rw [read_writes_whole _ _ hz3]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

end

end Cert.Kernel.Body

end
-- ==== Proof.KBTiles.lean ====
/-
  One 128-row tile of the 2048 × 2048 score scratch, written and read back.  Tile `j` (of 16) holds rows
  `128 j … 128 j + 127` and every column.  A store through the tile's rectangle puts the payload's entry
  `(r, k)` at row `128 j + r`, column `k`, and leaves the rows of every other tile as they were; a load
  through the same rectangle reads row `128 j + r`, column `k` at `(r, k)`.  At grid point `t` the body's
  tile is `t mod 16`, in both passes.
-/
import proofs.«152487_j11081015624289_2_alg».proof.Proof.KBRuns
import Idealize.ShloMosaic.Lib.Writes
import Idealize.ShloMosaic.Lib.Pipeline.FrameBody
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The tile's offsets over the grid -/

/-- In the first pass the tile of point `t` starts at row `128 (t mod 16)`, column 0. -/
theorem off1_eq : ∀ t : Fin cfg0.N, k0_off1 (grid0.coords t) = ![128 * (t.val % 16), 0] :=
  (by decide +kernel : ∀ t : Fin grid0.N, k0_off1 (grid0.coords t) = ![128 * (t.val % 16), 0])
/-- In the second pass likewise. -/
theorem off2_eq : ∀ t : Fin cfg0.N, k0_off2 (grid0.coords t) = ![128 * (t.val % 16), 0] :=
  (by decide +kernel : ∀ t : Fin grid0.N, k0_off2 (grid0.coords t) = ![128 * (t.val % 16), 0])

theorem off1_row (t : Fin cfg0.N) : k0_off1 (grid0.coords t) 0 = 128 * (t.val % 16) := congrFun (off1_eq t) 0
theorem off1_col (t : Fin cfg0.N) : k0_off1 (grid0.coords t) 1 = 0 := congrFun (off1_eq t) 1
theorem off2_row (t : Fin cfg0.N) : k0_off2 (grid0.coords t) 0 = 128 * (t.val % 16) := congrFun (off2_eq t) 0
theorem off2_col (t : Fin cfg0.N) : k0_off2 (grid0.coords t) 1 = 0 := congrFun (off2_eq t) 1

/-! ## The tile's rectangle -/

section Tile
variable {sig : RefSig} {κ : Kind} {sp : Space} {e : EltTy} {Val : EltTy → Type}
variable (off : Fin 2 → ℕ) (hinb : ∀ a, off a + S128x2048.size a ≤ S2048x2048.size a)
variable (j : ℕ) (hj : j < 16) (h0 : off 0 = 128 * j) (h1 : off 1 = 0)

include h0 h1 in
/-- Entry `(r, k)` of tile `j`'s rectangle is row `128 j + r`, column `k` of the scratch. -/
theorem tile_idx (r : Fin 128) (k : Fin 2048) :
    (Rect.unit (s := S2048x2048) off S128x2048.size hinb).idx (ix2 r k)
      = ix2 (⟨128 * j + r.val, by have := r.isLt; omega⟩ : Fin 2048) k := by
  refine funext fun a => Fin.ext ?_
  match a with
  | ⟨0, _⟩ =>
    show off 0 + 1 * r.val = 128 * j + r.val
    rw [h0, Nat.one_mul]
  | ⟨1, _⟩ =>
    show off 1 + 1 * k.val = k.val
    rw [h1, Nat.one_mul, Nat.zero_add]

include h0 h1 in
/-- After a store of `w` through tile `j`'s rectangle, row `128 j + r` reads `w`'s row `r`. -/
theorem tile_written (v : View sig κ sp S2048x2048 e) (f : v.ty.Contents Val) (w : S128x2048.Idx → Val e)
    (r : Fin 128) (k : Fin 2048) :
    v.read Val (v.writes Val f [⟨Rect.unit (s := S2048x2048) off S128x2048.size hinb, w⟩])
        (ix2 (⟨128 * j + r.val, by have := r.isLt; omega⟩ : Fin 2048) k) = w (ix2 r k) := by
  rw [← tile_idx off hinb j hj h0 h1 r k]
  exact View.read_writes_cons_emb v f (Rect.unit (s := S2048x2048) off S128x2048.size hinb) w [] (ix2 r k)

include h0 in
/-- The store leaves the rows of every other tile as they were. -/
theorem tile_kept (v : View sig κ sp S2048x2048 e) (f : v.ty.Contents Val) (w : S128x2048.Idx → Val e)
    (j' : ℕ) (hj' : j' < 16) (hne : j' ≠ j) (r : Fin 128) (k : Fin 2048) :
    v.read Val (v.writes Val f [⟨Rect.unit (s := S2048x2048) off S128x2048.size hinb, w⟩])
        (ix2 (⟨128 * j' + r.val, by have := r.isLt; omega⟩ : Fin 2048) k)
      = v.read Val f (ix2 (⟨128 * j' + r.val, by have := r.isLt; omega⟩ : Fin 2048) k) := by
  refine View.read_writes_apply_of_forall_not_mem v f _ _ fun p hp => ?_
  obtain rfl := List.mem_singleton.mp hp
  show _ ∉ (Rect.unit (s := S2048x2048) off S128x2048.size hinb).set
  rw [Rect.mem_set_unit]
  intro h
  obtain ⟨hlo, hhi⟩ := h 0
  have hlo' : off 0 ≤ 128 * j' + r.val := hlo
  have hhi' : 128 * j' + r.val < off 0 + 128 := hhi
  rw [h0] at hlo' hhi'
  have := r.isLt
  omega

include h0 h1 in
/-- A load through tile `j`'s rectangle of contents that read `X` reads, at `(r, k)`, `X` at row `128 j + r`. -/
theorem tile_loaded (X : S2048x2048.Idx → Val e) (r : Fin 128) (k : Fin 2048) :
    View.ld X (Rect.unit (s := S2048x2048) off S128x2048.size hinb) (ix2 r k)
      = X (ix2 (⟨128 * j + r.val, by have := r.isLt; omega⟩ : Fin 2048) k) :=
  congrArg X (tile_idx off hinb j hj h0 h1 r k)

include h0 h1 in
/-- The same for a load through a view of the scratch: what the view reads at row `128 j + r`. -/
theorem tile_readAt (v : View sig κ sp S2048x2048 e) (f : v.ty.Contents Val) (r : Fin 128) (k : Fin 2048) :
    v.readAt Val (Rect.unit (s := S2048x2048) off S128x2048.size hinb).toLoadRect f (ix2 r k)
      = v.read Val f (ix2 (⟨128 * j + r.val, by have := r.isLt; omega⟩ : Fin 2048) k) :=
  congrArg (v.read Val f) (tile_idx off hinb j hj h0 h1 r k)

end Tile

end Cert.Kernel.Body

end
-- ==== Proof.KBSInv.lean ====
/-
  The score scratch from grid point to grid point.  A first-pass point stores its 128-row tile of scores at
  rows `128 (t mod 32) … 128 (t mod 32) + 127` and touches no other row, so after it the scratch holds that tile
  and every tile it held before; a second-pass point stores nothing there, and the tile it loads, at rows
  `128 (t mod 16) …`, is the one stored sixteen points earlier.
-/
import proofs.«152487_j11081015624289_2_alg».proof.Proof.KBState
import proofs.«152487_j11081015624289_2_alg».proof.Proof.KBTiles

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)
variable (arg7 : Memref sig .tc .vmem S2048x2048 .f32) (harg7 : arg7.IsWhole)

/-- At a first-pass point the tile's first row is `128 (t mod 32)`: below 16, `t mod 32` is `t mod 16`. -/
theorem off1_row32 (t : Fin cfg0.N) (h : t.val % 32 < 16) : k0_off1 (grid0.coords t) 0 = 128 * (t.val % 32) :=
  (off1_row t).trans (by omega)

/-- A batch's first point leaves its own tile in the scratch, the only first-pass point of the batch so far. -/
theorem SInv_first (c : Dev nD) (t : Fin cfg0.N) (ht : t.val % 32 = 0) (h2 : k0_cond2 (grid0.coords t) = 1#1)
    (S : Vec F S2048x2048 .f32) :
    SInv m c t.val (arg7.view.read (Elt F) (arg7.view.writes (Elt F) (harg7.unread S)
      [⟨Rect.unit (s := S2048x2048) (k0_off1 (grid0.coords t)) S128x2048.size (k0_off1_inb (grid0.coords t) h2),
        k0_pay4 (iblk m c 0 t) (iblk m c 1 t)⟩])) := by
  unfold SInv
  intro t' hle hdiv hlt r k
  have e : t' = t := Fin.ext (by omega)
  subst e
  exact tile_written _ _ _ hlt (off1_row32 _ hlt) (off1_col _) arg7.view (harg7.unread S) _ r k

/-- A later first-pass point adds its tile and keeps the tiles of the earlier points of its batch. -/
theorem SInv_step (c : Dev nD) (t : Fin cfg0.N) (h0 : t.val % 32 ≠ 0) (ht : t.val % 32 < 16)
    (h2 : k0_cond2 (grid0.coords t) = 1#1) (S : Vec F S2048x2048 .f32) (hS : SInv m c (t.val - 1) S) :
    SInv m c t.val (arg7.view.read (Elt F) (arg7.view.writes (Elt F) (harg7.unread S)
      [⟨Rect.unit (s := S2048x2048) (k0_off1 (grid0.coords t)) S128x2048.size (k0_off1_inb (grid0.coords t) h2),
        k0_pay4 (iblk m c 0 t) (iblk m c 1 t)⟩])) := by
  unfold SInv
  intro t' hle hdiv hlt r k
  by_cases e : t' = t
  · subst e
    exact tile_written _ _ _ hlt (off1_row32 _ hlt) (off1_col _) arg7.view (harg7.unread S) _ r k
  · have hlt' : t'.val < t.val := lt_of_le_of_ne hle (fun h => e (Fin.ext h))
    have hne : t'.val % 32 ≠ t.val % 32 := by omega
    refine (tile_kept _ _ (t.val % 32) (off1_row32 t ht) arg7.view (harg7.unread S) _ (t'.val % 32) hlt hne r k).trans ?_
    refine (congrFun (harg7.read_unread S) _).trans ?_
    exact hS t' (by omega) (by omega) hlt r k

/-- A second-pass point stores nothing into the scratch, and is not itself a first-pass point. -/
theorem SInv_keep (c : Dev nD) (t : Fin cfg0.N) (ht : 16 ≤ t.val % 32) (S : Vec F S2048x2048 .f32)
    (hS : SInv m c (t.val - 1) S) : SInv m c t.val S := by
  unfold SInv
  intro t' hle hdiv hlt r k
  exact hS t' (by omega) (by omega) hlt r k

/-- The tile a second-pass point loads is the one the first-pass point sixteen points earlier computed. -/
theorem SInv_load (c : Dev nD) (t : Fin cfg0.N) (ht : 16 ≤ t.val % 32) (h3 : k0_cond3 (grid0.coords t) = 1#1)
    (S : Vec F S2048x2048 .f32) (hS : SInv m c (t.val - 1) S) :
    View.readAt (Elt F) arg7.view
        (Rect.unit (s := S2048x2048) (k0_off2 (grid0.coords t)) S128x2048.size (k0_off2_inb (grid0.coords t) h3)).toLoadRect
        (harg7.unread S)
      = sTile m c (tileOf t) := by
  funext x
  obtain ⟨r, k, rfl⟩ : ∃ (r : Fin 128) (k : Fin 2048), x = ix2 r k := ⟨x 0, x 1, eq_ix2 x⟩
  have hv : (tileOf t).val = t.val - 16 := rfl
  have hlt : (tileOf t).val % 32 < 16 := by omega
  have h0 : k0_off2 (grid0.coords t) 0 = 128 * ((tileOf t).val % 32) := (off2_row t).trans (by omega)
  refine (tile_readAt _ _ ((tileOf t).val % 32) hlt h0 (off2_col t) arg7.view (harg7.unread S) r k).trans ?_
  refine (congrFun (harg7.read_unread S) _).trans ?_
  exact hS (tileOf t) (by omega) (by omega) hlt r k

end Cert.Kernel.Body

end
-- ==== Proof.KBBody.lean ====
/-
  The body obligation of the fused kernel's pipeline, in the three cases of the body's branches (a batch's
  first tile, the other first-pass tiles, the second pass), then the frame run and the frame.
-/
import proofs.«152487_j11081015624289_2_alg».proof.Proof.KBDat
import proofs.«152487_j11081015624289_2_alg».proof.Proof.KBPieces
import proofs.«152487_j11081015624289_2_alg».proof.Proof.KBSInv

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  First pass: the point's tile of scores goes into the score scratch (which keeps the batch's
    earlier tiles), the running maximum and normaliser are updated (from −∞ and 0 at the batch's first tile), the output
    window is handed back untouched.  Second pass: the scratch buffers are only read, and the output's buffer ends at the
    point's output tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 256 := lt_of_lt_of_eq t.isLt (show cfg0.N = 256 from N_0)
  by_cases h2 : t.val % 32 < 16
  · have hc2 : cond2 (grid0.coords t) := (hcond2 t).mpr h2
    have hc3 : ¬cond3 (grid0.coords t) := fun h => by have := (hcond3 t).mp h; omega
    rw [Dat.leavesExact_idle (dats m 0 c) 3 t (idleAt0_3 t hc3) (noFlush0_3 t hc3)]
    by_cases h0 : t.val % 32 = 0
    · have hcA : condA (grid0.coords t) := (hcondA t).mpr h0
      rw [mlAt_first m c t h0]; unfold mlStep; dsimp only
      by_cases hz : t.val = 0
      · rw [PhiS_castSucc m c t, PhiS_zero m c _ _ hz, PhiA0_eq]
        iintro ⟨⟨⟨⟨%S, HS0⟩, ⟨%d1, HS1⟩, ⟨%d2, HS2⟩⟩, Hg⟩, Ho, ⟨%e0, H0⟩, ⟨%e1, H1⟩, ⟨%e2, H2⟩, ⟨%e3, H3⟩⟩
        iapply ((kernelRun0_A c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S d1 d2 _).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]
            · iexists _; isplitr; swap
              · unfold owns; iexists _; isplitr; swap; · iexact HS0
                ipureintro; rfl
              ipureintro; rw [pieceA_S]; exact SInv_first m scM0_0 (Memref.isWhole_whole _) c t h0 hc2 S
            isplitl [HS1]
            · unfold owns; iexists _; isplitr; swap; · iexact HS1
              ipureintro; exact pieceA_m ..
            · unfold owns; iexists _; isplitr; swap; · iexact HS2
              ipureintro; exact pieceA_l ..
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨⟨%S, %hS, HS0⟩, HS1, HS2⟩, Hg⟩, Ho, ⟨%e0, H0⟩, ⟨%e1, H1⟩, ⟨%e2, H2⟩, ⟨%e3, H3⟩⟩
        iapply ((kernelRun0_A c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _ _).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]
            · iexists _; isplitr; swap
              · unfold owns; iexists _; isplitr; swap; · iexact HS0
                ipureintro; rfl
              ipureintro; rw [pieceA_S]; exact SInv_first m scM0_0 (Memref.isWhole_whole _) c t h0 hc2 S
            isplitl [HS1]
            · unfold owns; iexists _; isplitr; swap; · iexact HS1
              ipureintro; exact pieceA_m ..
            · unfold owns; iexists _; isplitr; swap; · iexact HS2
              ipureintro; exact pieceA_l ..
          iexact Hg
        isplitl [Ho]; · iexact Ho
        isplitl [H0]; · iexact H0
        isplitl [H1]; · iexact H1
        isplitl [H2]; · iexact H2
        iexists _; iexact H3
    · have hcA : ¬condA (grid0.coords t) := fun h => h0 ((hcondA t).mp h)
      have hz : t.val ≠ 0 := fun e => h0 (by rw [e])
      rw [mlAt_pass1 m c t h0 h2]; unfold mlStep; dsimp only
      rw [PhiS_castSucc m c t, PhiS_pos m c _ _ hz]
      iintro ⟨⟨⟨⟨%S, %hS, HS0⟩, HS1, HS2⟩, Hg⟩, Ho, ⟨%e0, H0⟩, ⟨%e1, H1⟩, ⟨%e2, H2⟩, ⟨%e3, H3⟩⟩
      iapply ((kernelRun0_B c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _ _).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]
          · iexists _; isplitr; swap
            · unfold owns; iexists _; isplitr; swap; · iexact HS0
              ipureintro; rfl
            ipureintro; rw [pieceB_S]; exact SInv_step m scM0_0 (Memref.isWhole_whole _) c t h0 h2 hc2 S hS
          isplitl [HS1]
          · unfold owns; iexists _; isplitr; swap; · iexact HS1
            ipureintro; exact pieceB_m ..
          · unfold owns; iexists _; isplitr; swap; · iexact HS2
            ipureintro; exact pieceB_l ..
        iexact Hg
      isplitl [Ho]; · iexact Ho
      isplitl [H0]; · iexact H0
      isplitl [H1]; · iexact H1
      isplitl [H2]; · iexact H2
      iexists _; iexact H3
  · have h3 : 16 ≤ t.val % 32 := by omega
    have hc2 : ¬cond2 (grid0.coords t) := fun h => h2 ((hcond2 t).mp h)
    have hc3 : cond3 (grid0.coords t) := (hcond3 t).mpr h3
    have hcA : ¬condA (grid0.coords t) := fun h => by have := (hcondA t).mp h; omega
    have hz : t.val ≠ 0 := fun e => by rw [e] at h3; omega
    rw [show (dats m 0 c).leavesExact 3 t = owns (c : Thread nD τ) (ms0_3 t) fullShare ((dats m 0 c).after 3 t) from by
      unfold Dat.leavesExact; rw [liveAt0_3 t hc3], after0_3]
    rw [PhiS_castSucc m c t, PhiS_pos m c _ _ hz, mlAt_pass2 m c t h3]
    iintro ⟨⟨⟨⟨%S, %hS, HS0⟩, HS1, HS2⟩, Hg⟩, Ho, ⟨%e0, H0⟩, ⟨%e1, H1⟩, ⟨%e2, H2⟩, ⟨%e3, H3⟩⟩
    iapply ((kernelRun0_C c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%f3, H3⟩, HS0, HS1, HS2⟩
    isplitl [HS0 HS1 HS2 Hg]
    · isplitl [HS0 HS1 HS2]
      · isplitl [HS0]
        · iexists S; isplitr
          · ipureintro; exact SInv_keep m c t h3 S hS
          · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr; swap; · iexact H3
    ipureintro
    rw [pieceC_o, SInv_load m scM0_0 (Memref.isWhole_whole _) c t h3 hc3 S hS]
    unfold out3; rw [mlAt_pass2 m c t h3]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨⟨%S, %hS, HS0⟩, HS1, HS2⟩, Hg⟩
  isplitl [HS0 HS1 HS2]
  · isplitl [HS0]; · iexists _; iexact HS0
    isplitl [HS1]; · iexists _; iexact HS1
    iexists _; iexact HS2
  iexact Hg

/-- At the compiled mesh, from any memory with zero counters: every weakly fair execution of @main terminates, and every final
    state has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KIRuns.lean ====
/-
  The grid of the fused kernel has 8 · 2 · 16 = 256 points, visited batch by batch; within a batch the
  first 16 points (the first pass) compute one 128-row tile of scores each and fold it into the running
  column maximum and normaliser, the last 16 (the second pass) normalise one tile each and multiply it by
  the value block.  Point `t` is in the first pass iff `t mod 32 < 16`, and it is the batch's first point
  iff `t mod 32 = 0`.  This module decides those three facts over the grid, says where the output window
  is idle and not written back (the whole first pass), and names the memrefs the body is called with.
-/
import proofs.«152487_j11081015624289_2_alg».proof.Proof.Gen.KernelIdeal.Frame
import proofs.«152487_j11081015624289_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The body's first branch (reset the running maximum to −∞ and the normaliser to 0): first pass and tile 0. -/
abbrev condA (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The second branch (the first pass's work). -/
abbrev cond2 (i : grid0.Coords) : Prop := k0_cond2 i = 1#1
/-- The third branch (the second pass's work). -/
abbrev cond3 (i : grid0.Coords) : Prop := k0_cond3 i = 1#1

theorem hcondA : ∀ t : Fin cfg0.N, condA (grid0.coords t) ↔ t.val % 32 = 0 :=
  (by decide +kernel : ∀ t : Fin grid0.N, condA (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ 16 ≤ t.val % 32 :=
  (by decide +kernel : ∀ t : Fin grid0.N, cond3 (grid0.coords t) ↔ 16 ≤ t.val % 32)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- In the first pass the body stores nothing into the output window … -/
theorem idleAt0_3 : ∀ t : Fin cfg0.N, ¬cond3 (grid0.coords t) → cfg0.idle 3 (grid0.coords t) = true := by decide +kernel
/-- … and the pipeline does not write its block back there. -/
theorem noFlush0_3 : ∀ t : Fin cfg0.N, ¬cond3 (grid0.coords t) → (cfg0.win 3).flush t = false := by decide +kernel
/-- In the second pass the output window is live. -/
theorem liveAt0_3 : ∀ t : Fin cfg0.N, cond3 (grid0.coords t) → cfg0.idle 3 (grid0.coords t) = false := by decide +kernel

/-! ## The memrefs the body is called with -/

abbrev ms0_0 (t : Fin cfg0.N) : Memref sig .tc .vmem S1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .f32 := win0_3.stage (cfg0.slots t 3)
abbrev hs0_3 (t : Fin cfg0.N) : (ms0_3 t).IsWhole := hstage0_3 ((cfg0.slots t 3).cast nbuf0_3)
/-- The three scratch buffers: the score matrix of the current batch, the running column maximum, the running normaliser. -/
abbrev scM0_0 : Memref sig .tc .vmem S2048x2048 .f32 := Memref.whole cc0_scratch0
abbrev scM0_1 : Memref sig .tc .vmem S1x2048 .f32 := Memref.whole cc0_scratch1
abbrev scM0_2 : Memref sig .tc .vmem S1x2048 .f32 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KIState.lean ====
/-
  What the kernel carries from grid point to grid point, named.  Within a batch the first pass visits the
  sixteen 128-row tiles of the score matrix in order.  `sTile t` is the tile computed at a first-pass point
  `t`; `mlAt n` is the pair (running column maximum, running normaliser) after point `n`: reset to (−∞, 0) before
  a batch's first tile, updated by each first-pass point, untouched by the second pass.  `out3 t` is the output
  tile a second-pass point computes from the score tile stored sixteen points earlier, the final maximum and
  normaliser and the value block.  `SInv n S` says the score scratch holds, after point `n`, every tile the
  first-pass points of the current batch have stored so far.
-/
import proofs.«152487_j11081015624289_2_alg».proof.Proof.KIRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The score tile a first-pass point computes from its query block and the batch's key block. -/
def sTile (c : Dev nD) (t : Fin cfg0.N) : FVec F S128x2048 .f32 := k0_pay4 (iblk m c 0 t) (iblk m c 1 t)

/-- One first-pass update of (running maximum, running normaliser) at point `t`. -/
def mlStep (c : Dev nD) (t : Fin cfg0.N) (p : Vec F S1x2048 .f32 × Vec F S1x2048 .f32) : Vec F S1x2048 .f32 × Vec F S1x2048 .f32 :=
  (k0_pay7 (iblk m c 0 t) (iblk m c 1 t) p.1, k0_pay6 (iblk m c 0 t) (iblk m c 1 t) p.1 p.1 p.2)

/-- (running maximum, running normaliser) after point `n`. -/
def mlAt (c : Dev nD) : (n : ℕ) → n < cfg0.N → Vec F S1x2048 .f32 × Vec F S1x2048 .f32
  | 0, hn => mlStep m c ⟨0, hn⟩ (k0_pay1, k0_pay2)
  | n + 1, hn =>
    if (n + 1) % 32 < 16 then
      mlStep m c ⟨n + 1, hn⟩ (if (n + 1) % 32 = 0 then (k0_pay1, k0_pay2) else mlAt c n (Nat.lt_of_succ_lt hn))
    else mlAt c n (Nat.lt_of_succ_lt hn)

theorem mlAt_first (c : Dev nD) (t : Fin cfg0.N) (h : t.val % 32 = 0) :
    mlAt m c t.val t.isLt = mlStep m c t (k0_pay1, k0_pay2) := by
  obtain ⟨n, hn⟩ := t
  cases n with
  | zero => rfl
  | succ n =>
    have h' : (n + 1) % 32 = 0 := h
    show (if (n + 1) % 32 < 16 then _ else _) = _
    rw [if_pos (by omega), if_pos h']

theorem mlAt_pass1 (c : Dev nD) (t : Fin cfg0.N) (h0 : t.val % 32 ≠ 0) (h : t.val % 32 < 16) :
    mlAt m c t.val t.isLt = mlStep m c t (mlAt m c (t.val - 1) (Nat.lt_of_le_of_lt (Nat.sub_le _ _) t.isLt)) := by
  obtain ⟨n, hn⟩ := t
  cases n with
  | zero => exact absurd (Nat.zero_mod _) h0
  | succ n =>
    have h0' : ¬ (n + 1) % 32 = 0 := h0
    have h' : (n + 1) % 32 < 16 := h
    show (if (n + 1) % 32 < 16 then _ else _) = _
    rw [if_pos h', if_neg h0']
    rfl

theorem mlAt_pass2 (c : Dev nD) (t : Fin cfg0.N) (h : 16 ≤ t.val % 32) :
    mlAt m c t.val t.isLt = mlAt m c (t.val - 1) (Nat.lt_of_le_of_lt (Nat.sub_le _ _) t.isLt) := by
  obtain ⟨n, hn⟩ := t
  cases n with
  | zero => exact absurd h (by show ¬ 16 ≤ 0 % 32; omega)
  | succ n =>
    have h' : ¬ (n + 1) % 32 < 16 := by have : 16 ≤ (n + 1) % 32 := h; omega
    show (if (n + 1) % 32 < 16 then _ else _) = _
    rw [if_neg h']
    rfl

/-- The first-pass point that stored the score tile a second-pass point reads: sixteen points earlier. -/
def tileOf (t : Fin cfg0.N) : Fin cfg0.N := ⟨t.val - 16, Nat.lt_of_le_of_lt (Nat.sub_le _ _) t.isLt⟩

/-- The output tile of a second-pass point. -/
def out3 (c : Dev nD) (t : Fin cfg0.N) : Vec F S1x128x1024 .f32 :=
  k0_pay8 (sTile m c (tileOf t)) (mlAt m c t.val t.isLt).1 (mlAt m c t.val t.isLt).2 (iblk m c 2 t)

/-- After point `n` the score scratch holds the tile of every first-pass point of `n`'s batch up to `n`. -/
def SInv (c : Dev nD) (n : ℕ) (S : Vec F S2048x2048 .f32) : Prop :=
  ∀ t' : Fin cfg0.N, t'.val ≤ n → t'.val / 32 = n / 32 → (h : t'.val % 32 < 16) → ∀ (r : Fin 128) (k : Fin 2048),
    S (ix2 (⟨128 * (t'.val % 32) + r.val, by omega⟩ : Fin 2048) k) = sTile m c t' (ix2 r k)

end Cert.KernelIdeal.Body

end
-- ==== Proof.KIDat.lean ====
/-
  The proof data of the fused kernel's one pipeline.  After the body at point `t` every input's staging
  buffer holds its block; the output's holds `out3 t` (consulted at second-pass points only: in the first
  pass the window is idle and handed back untouched); the region's invariant says, after point `n`, that the
  score scratch satisfies `SInv n` and the two row scratches hold `mlAt n`.
-/
import proofs.«152487_j11081015624289_2_alg».proof.Proof.KIState

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The region's invariant before position `n`: before the first point every scratch buffer holds anything; afterwards the
    score scratch holds contents satisfying `SInv` and the row scratches the running maximum and normaliser. -/
def PhiS (c : Dev nD) : (n : ℕ) → n ≤ cfg0.N → sProp 𝕄
  | 0, _ => Pipeline.ΦA spec0 c
  | n + 1, hn => iprop(iprop((∃ S, iprop(⌜SInv m c n S⌝ ∗ owns (c : Thread nD τ) scM0_0 fullShare S)) ∗ owns (c : Thread nD τ) scM0_1 fullShare (mlAt m c n hn).1 ∗ owns (c : Thread nD τ) scM0_2 fullShare (mlAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ S, iprop(⌜SInv m c n S⌝ ∗ owns (c : Thread nD τ) scM0_0 fullShare S)) ∗ owns (c : Thread nD τ) scM0_1 fullShare (mlAt m c n hn).1 ∗ owns (c : Thread nD τ) scM0_2 fullShare (mlAt m c n hn).2) ∗ (∃ r, prngReg c r)) := rfl

theorem PhiS_pos (c : Dev nD) (n : ℕ) (h : n ≤ cfg0.N) (hz : n ≠ 0) :
    PhiS m c n h = iprop(iprop((∃ S, iprop(⌜SInv m c (n - 1) S⌝ ∗ owns (c : Thread nD τ) scM0_0 fullShare S)) ∗ owns (c : Thread nD τ) scM0_1 fullShare (mlAt m c (n - 1) (by omega)).1 ∗ owns (c : Thread nD τ) scM0_2 fullShare (mlAt m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Body

end
-- ==== Proof.KIRunB.lean ====
/-
  The body run once in the case: first pass, not the batch's first tile.  The inputs' staging buffers hold their blocks, the output's
  buffer some contents the body does not touch, the three scratch buffers known contents; the run ends with
  the inputs and the output's buffer as they were and each scratch buffer at its contents overwritten by a
  list of stores, which the run finds.
-/
import proofs.«152487_j11081015624289_2_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the three scratch buffers (last first), with the proof that the body runs to a
    continuation holding every buffer so. -/
noncomputable def kernelRun0_B (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : ¬condA i) (hc2 : cond2 i) (hc3 : ¬cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32) :
    Σ' (LS0 : List (View.Piece (Elt F) S2048x2048 .f32)) (LS1 : List (View.Piece (Elt F) S1x2048 .f32)), { LS2 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare y3
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexact HS0
    isplitl [HS1]; · iexact HS1
    iexact HS2

end Cert.KernelIdeal.Body

end
-- ==== Proof.KIRunA.lean ====
/-
  The body run once in the case: first pass, the batch's first tile (the running maximum and normaliser are reset first).  The inputs' staging buffers hold their blocks, the output's
  buffer some contents the body does not touch, the three scratch buffers known contents; the run ends with
  the inputs and the output's buffer as they were and each scratch buffer at its contents overwritten by a
  list of stores, which the run finds.
-/
import proofs.«152487_j11081015624289_2_alg».proof.Proof.KIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the three scratch buffers (last first), with the proof that the body runs to a
    continuation holding every buffer so. -/
noncomputable def kernelRun0_A (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : condA i) (hc2 : cond2 i) (hc3 : ¬cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32) :
    Σ' (LS0 : List (View.Piece (Elt F) S2048x2048 .f32)) (LS1 : List (View.Piece (Elt F) S1x2048 .f32)), { LS2 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare y3
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexact HS0
    isplitl [HS1]; · iexact HS1
    iexact HS2

end Cert.KernelIdeal.Body

end
-- ==== Proof.KIRunC.lean ====
/-
  The body run once in the case: second pass.  The inputs' staging buffers hold their blocks, the output's
  anything, the three scratch buffers known contents; the run ends with the inputs and the scratch buffers
  as they were and the output's buffer overwritten by a list of stores, which the run finds.
-/
import proofs.«152487_j11081015624289_2_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first), with the proof that the body runs to a
    continuation holding every buffer so. -/
noncomputable def kernelRun0_C (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole)
    (hcA : ¬condA i) (hc2 : ¬cond2 i) (hc3 : cond3 i)
    (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) :
    { L3 : List (View.Piece (Elt F) S1x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0__fused_kernel i arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hcA | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Body

end
-- ==== Proof.KIPieces.lean ====
/-
  What each case of the body leaves in each buffer, as the body's payloads of the buffers' contents before the
  point: a load of a whole staging or scratch buffer reads its contents, a store of a whole buffer leaves its
  payload, and a row scratch reset and read back within the point reads the reset value.
-/
import proofs.«152487_j11081015624289_2_alg».proof.Proof.KIRunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- One store through the whole-buffer rectangle, last, leaves its payload whatever came before. -/
theorem read_writes_whole {S : Shape} {e : EltTy} (v : View sig .tc .vmem S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

section
variable (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole) (x0 : Vec F S1x128x1024 .f32) (x1 : Vec F S1x2048x1024 .bf16) (x2 : Vec F S1x2048x1024 .bf16) (xs0 : Vec F S2048x2048 .f32) (xs1 : Vec F S1x2048 .f32) (xs2 : Vec F S1x2048 .f32) (y3 : Vec F S1x128x1024 .f32)

/-! ## First pass, not the batch's first tile -/

theorem pieceB_S (hcA : ¬condA i) (hc2 : cond2 i) (hc3 : ¬cond3 i) :
    (kernelRun0_B c i arg3 harg3 arg4 harg4 arg5 harg5 arg6 harg6 arg7 harg7 arg8 harg8 arg9 harg9 hcA hc2 hc3 x0 x1 x2 xs0 xs1 xs2 y3).1 = [⟨Rect.unit (s := S2048x2048) (k0_off1 i) S128x2048.size (k0_off1_inb i hc2), k0_pay4 x0 x1⟩] := by
  unfold kernelRun0_B; dsimp only
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceB_m (hcA : ¬condA i) (hc2 : cond2 i) (hc3 : ¬cond3 i) :
    arg8.view.read (Elt F) (arg8.view.writes (Elt F) (harg8.unread xs1) (kernelRun0_B c i arg3 harg3 arg4 harg4 arg5 harg5 arg6 harg6 arg7 harg7 arg8 harg8 arg9 harg9 hcA hc2 hc3 x0 x1 x2 xs0 xs1 xs2 y3).2.1) = k0_pay7 x0 x1 xs1 := by
  unfold kernelRun0_B; dsimp only
  rw [read_writes_whole _ _ hz2]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceB_l (hcA : ¬condA i) (hc2 : cond2 i) (hc3 : ¬cond3 i) :
    arg9.view.read (Elt F) (arg9.view.writes (Elt F) (harg9.unread xs2) (kernelRun0_B c i arg3 harg3 arg4 harg4 arg5 harg5 arg6 harg6 arg7 harg7 arg8 harg8 arg9 harg9 hcA hc2 hc3 x0 x1 x2 xs0 xs1 xs2 y3).2.2.1) = k0_pay6 x0 x1 xs1 xs1 xs2 := by
  unfold kernelRun0_B; dsimp only
  rw [read_writes_whole _ _ hz2]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

/-! ## First pass, the batch's first tile -/

theorem v25_eq (arg8 : Memref sig .tc .vmem S1x2048 .f32) : kernelRun0_A.sl.v25 (F := F) c arg8 = k0_pay1 := by
  unfold kernelRun0_A.sl.v25 kernelRun0_A.sl.HS1_1
  exact View.readCov_unit_zero _ hz2 _ _
theorem v30_eq (arg9 : Memref sig .tc .vmem S1x2048 .f32) : kernelRun0_A.sl.v30 (F := F) c arg9 = k0_pay2 := by
  unfold kernelRun0_A.sl.v30 kernelRun0_A.sl.HS2_1
  exact View.readCov_unit_zero _ hz2 _ _

theorem pieceA_S (hcA : condA i) (hc2 : cond2 i) (hc3 : ¬cond3 i) :
    (kernelRun0_A c i arg3 harg3 arg4 harg4 arg5 harg5 arg6 harg6 arg7 harg7 arg8 harg8 arg9 harg9 hcA hc2 hc3 x0 x1 x2 xs0 xs1 xs2 y3).1 = [⟨Rect.unit (s := S2048x2048) (k0_off1 i) S128x2048.size (k0_off1_inb i hc2), k0_pay4 x0 x1⟩] := by
  unfold kernelRun0_A; dsimp only
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceA_m (hcA : condA i) (hc2 : cond2 i) (hc3 : ¬cond3 i) :
    arg8.view.read (Elt F) (arg8.view.writes (Elt F) (harg8.unread xs1) (kernelRun0_A c i arg3 harg3 arg4 harg4 arg5 harg5 arg6 harg6 arg7 harg7 arg8 harg8 arg9 harg9 hcA hc2 hc3 x0 x1 x2 xs0 xs1 xs2 y3).2.1) = k0_pay7 x0 x1 k0_pay1 := by
  unfold kernelRun0_A; dsimp only
  rw [read_writes_whole _ _ hz2, v25_eq]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

theorem pieceA_l (hcA : condA i) (hc2 : cond2 i) (hc3 : ¬cond3 i) :
    arg9.view.read (Elt F) (arg9.view.writes (Elt F) (harg9.unread xs2) (kernelRun0_A c i arg3 harg3 arg4 harg4 arg5 harg5 arg6 harg6 arg7 harg7 arg8 harg8 arg9 harg9 hcA hc2 hc3 x0 x1 x2 xs0 xs1 xs2 y3).2.2.1) = k0_pay6 x0 x1 k0_pay1 k0_pay1 k0_pay2 := by
  unfold kernelRun0_A; dsimp only
  rw [read_writes_whole _ _ hz2, v25_eq, v30_eq]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

/-! ## Second pass -/

theorem pieceC_o (hcA : ¬condA i) (hc2 : ¬cond2 i) (hc3 : cond3 i) (f : arg6.view.ty.Contents (Elt F)) :
    arg6.view.read (Elt F) (arg6.view.writes (Elt F) f (kernelRun0_C c i arg3 harg3 arg4 harg4 arg5 harg5 arg6 harg6 arg7 harg7 arg8 harg8 arg9 harg9 hcA hc2 hc3 x0 x1 x2 xs0 xs1 xs2).1)
      = k0_pay8 (View.readAt (Elt F) arg7.view (Rect.unit (s := S2048x2048) (k0_off2 i) S128x2048.size (k0_off2_inb i hc3)).toLoadRect (harg7.unread xs0)) xs1 xs2 x2 := by
  unfold kernelRun0_C; dsimp only
  rw [read_writes_whole _ _ hz3]
  simp only [View.readAt_eq_ld, harg3.read_unread, harg4.read_unread, harg5.read_unread, harg8.read_unread, harg9.read_unread, View.ld_unit_zero (S := S1x128x1024) hz3, View.ld_unit_zero (S := S1x2048x1024) hz3, View.ld_unit_zero (S := S1x2048) hz2]

end

end Cert.KernelIdeal.Body

end
-- ==== Proof.KITiles.lean ====
/-
  One 128-row tile of the 2048 × 2048 score scratch, written and read back.  Tile `j` (of 16) holds rows
  `128 j … 128 j + 127` and every column.  A store through the tile's rectangle puts the payload's entry
  `(r, k)` at row `128 j + r`, column `k`, and leaves the rows of every other tile as they were; a load
  through the same rectangle reads row `128 j + r`, column `k` at `(r, k)`.  At grid point `t` the body's
  tile is `t mod 16`, in both passes.
-/
import proofs.«152487_j11081015624289_2_alg».proof.Proof.KIRuns
import Idealize.ShloMosaic.Lib.Writes
import Idealize.ShloMosaic.Lib.Pipeline.FrameBody
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The tile's offsets over the grid -/

/-- In the first pass the tile of point `t` starts at row `128 (t mod 16)`, column 0. -/
theorem off1_eq : ∀ t : Fin cfg0.N, k0_off1 (grid0.coords t) = ![128 * (t.val % 16), 0] :=
  (by decide +kernel : ∀ t : Fin grid0.N, k0_off1 (grid0.coords t) = ![128 * (t.val % 16), 0])
/-- In the second pass likewise. -/
theorem off2_eq : ∀ t : Fin cfg0.N, k0_off2 (grid0.coords t) = ![128 * (t.val % 16), 0] :=
  (by decide +kernel : ∀ t : Fin grid0.N, k0_off2 (grid0.coords t) = ![128 * (t.val % 16), 0])

theorem off1_row (t : Fin cfg0.N) : k0_off1 (grid0.coords t) 0 = 128 * (t.val % 16) := congrFun (off1_eq t) 0
theorem off1_col (t : Fin cfg0.N) : k0_off1 (grid0.coords t) 1 = 0 := congrFun (off1_eq t) 1
theorem off2_row (t : Fin cfg0.N) : k0_off2 (grid0.coords t) 0 = 128 * (t.val % 16) := congrFun (off2_eq t) 0
theorem off2_col (t : Fin cfg0.N) : k0_off2 (grid0.coords t) 1 = 0 := congrFun (off2_eq t) 1

/-! ## The tile's rectangle -/

section Tile
variable {sig : RefSig} {κ : Kind} {sp : Space} {e : EltTy} {Val : EltTy → Type}
variable (off : Fin 2 → ℕ) (hinb : ∀ a, off a + S128x2048.size a ≤ S2048x2048.size a)
variable (j : ℕ) (hj : j < 16) (h0 : off 0 = 128 * j) (h1 : off 1 = 0)

include h0 h1 in
/-- Entry `(r, k)` of tile `j`'s rectangle is row `128 j + r`, column `k` of the scratch. -/
theorem tile_idx (r : Fin 128) (k : Fin 2048) :
    (Rect.unit (s := S2048x2048) off S128x2048.size hinb).idx (ix2 r k)
      = ix2 (⟨128 * j + r.val, by have := r.isLt; omega⟩ : Fin 2048) k := by
  refine funext fun a => Fin.ext ?_
  match a with
  | ⟨0, _⟩ =>
    show off 0 + 1 * r.val = 128 * j + r.val
    rw [h0, Nat.one_mul]
  | ⟨1, _⟩ =>
    show off 1 + 1 * k.val = k.val
    rw [h1, Nat.one_mul, Nat.zero_add]

include h0 h1 in
/-- After a store of `w` through tile `j`'s rectangle, row `128 j + r` reads `w`'s row `r`. -/
theorem tile_written (v : View sig κ sp S2048x2048 e) (f : v.ty.Contents Val) (w : S128x2048.Idx → Val e)
    (r : Fin 128) (k : Fin 2048) :
    v.read Val (v.writes Val f [⟨Rect.unit (s := S2048x2048) off S128x2048.size hinb, w⟩])
        (ix2 (⟨128 * j + r.val, by have := r.isLt; omega⟩ : Fin 2048) k) = w (ix2 r k) := by
  rw [← tile_idx off hinb j hj h0 h1 r k]
  exact View.read_writes_cons_emb v f (Rect.unit (s := S2048x2048) off S128x2048.size hinb) w [] (ix2 r k)

include h0 in
/-- The store leaves the rows of every other tile as they were. -/
theorem tile_kept (v : View sig κ sp S2048x2048 e) (f : v.ty.Contents Val) (w : S128x2048.Idx → Val e)
    (j' : ℕ) (hj' : j' < 16) (hne : j' ≠ j) (r : Fin 128) (k : Fin 2048) :
    v.read Val (v.writes Val f [⟨Rect.unit (s := S2048x2048) off S128x2048.size hinb, w⟩])
        (ix2 (⟨128 * j' + r.val, by have := r.isLt; omega⟩ : Fin 2048) k)
      = v.read Val f (ix2 (⟨128 * j' + r.val, by have := r.isLt; omega⟩ : Fin 2048) k) := by
  refine View.read_writes_apply_of_forall_not_mem v f _ _ fun p hp => ?_
  obtain rfl := List.mem_singleton.mp hp
  show _ ∉ (Rect.unit (s := S2048x2048) off S128x2048.size hinb).set
  rw [Rect.mem_set_unit]
  intro h
  obtain ⟨hlo, hhi⟩ := h 0
  have hlo' : off 0 ≤ 128 * j' + r.val := hlo
  have hhi' : 128 * j' + r.val < off 0 + 128 := hhi
  rw [h0] at hlo' hhi'
  have := r.isLt
  omega

include h0 h1 in
/-- A load through tile `j`'s rectangle of contents that read `X` reads, at `(r, k)`, `X` at row `128 j + r`. -/
theorem tile_loaded (X : S2048x2048.Idx → Val e) (r : Fin 128) (k : Fin 2048) :
    View.ld X (Rect.unit (s := S2048x2048) off S128x2048.size hinb) (ix2 r k)
      = X (ix2 (⟨128 * j + r.val, by have := r.isLt; omega⟩ : Fin 2048) k) :=
  congrArg X (tile_idx off hinb j hj h0 h1 r k)

include h0 h1 in
/-- The same for a load through a view of the scratch: what the view reads at row `128 j + r`. -/
theorem tile_readAt (v : View sig κ sp S2048x2048 e) (f : v.ty.Contents Val) (r : Fin 128) (k : Fin 2048) :
    v.readAt Val (Rect.unit (s := S2048x2048) off S128x2048.size hinb).toLoadRect f (ix2 r k)
      = v.read Val f (ix2 (⟨128 * j + r.val, by have := r.isLt; omega⟩ : Fin 2048) k) :=
  congrArg (v.read Val f) (tile_idx off hinb j hj h0 h1 r k)

end Tile

end Cert.KernelIdeal.Body

end
-- ==== Proof.KISInv.lean ====
/-
  The score scratch from grid point to grid point.  A first-pass point stores its 128-row tile of scores at
  rows `128 (t mod 32) … 128 (t mod 32) + 127` and touches no other row, so after it the scratch holds that tile
  and every tile it held before; a second-pass point stores nothing there, and the tile it loads, at rows
  `128 (t mod 16) …`, is the one stored sixteen points earlier.
-/
import proofs.«152487_j11081015624289_2_alg».proof.Proof.KIState
import proofs.«152487_j11081015624289_2_alg».proof.Proof.KITiles

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)
variable (arg7 : Memref sig .tc .vmem S2048x2048 .f32) (harg7 : arg7.IsWhole)

/-- At a first-pass point the tile's first row is `128 (t mod 32)`: below 16, `t mod 32` is `t mod 16`. -/
theorem off1_row32 (t : Fin cfg0.N) (h : t.val % 32 < 16) : k0_off1 (grid0.coords t) 0 = 128 * (t.val % 32) :=
  (off1_row t).trans (by omega)

/-- A batch's first point leaves its own tile in the scratch, the only first-pass point of the batch so far. -/
theorem SInv_first (c : Dev nD) (t : Fin cfg0.N) (ht : t.val % 32 = 0) (h2 : k0_cond2 (grid0.coords t) = 1#1)
    (S : Vec F S2048x2048 .f32) :
    SInv m c t.val (arg7.view.read (Elt F) (arg7.view.writes (Elt F) (harg7.unread S)
      [⟨Rect.unit (s := S2048x2048) (k0_off1 (grid0.coords t)) S128x2048.size (k0_off1_inb (grid0.coords t) h2),
        k0_pay4 (iblk m c 0 t) (iblk m c 1 t)⟩])) := by
  unfold SInv
  intro t' hle hdiv hlt r k
  have e : t' = t := Fin.ext (by omega)
  subst e
  exact tile_written _ _ _ hlt (off1_row32 _ hlt) (off1_col _) arg7.view (harg7.unread S) _ r k

/-- A later first-pass point adds its tile and keeps the tiles of the earlier points of its batch. -/
theorem SInv_step (c : Dev nD) (t : Fin cfg0.N) (h0 : t.val % 32 ≠ 0) (ht : t.val % 32 < 16)
    (h2 : k0_cond2 (grid0.coords t) = 1#1) (S : Vec F S2048x2048 .f32) (hS : SInv m c (t.val - 1) S) :
    SInv m c t.val (arg7.view.read (Elt F) (arg7.view.writes (Elt F) (harg7.unread S)
      [⟨Rect.unit (s := S2048x2048) (k0_off1 (grid0.coords t)) S128x2048.size (k0_off1_inb (grid0.coords t) h2),
        k0_pay4 (iblk m c 0 t) (iblk m c 1 t)⟩])) := by
  unfold SInv
  intro t' hle hdiv hlt r k
  by_cases e : t' = t
  · subst e
    exact tile_written _ _ _ hlt (off1_row32 _ hlt) (off1_col _) arg7.view (harg7.unread S) _ r k
  · have hlt' : t'.val < t.val := lt_of_le_of_ne hle (fun h => e (Fin.ext h))
    have hne : t'.val % 32 ≠ t.val % 32 := by omega
    refine (tile_kept _ _ (t.val % 32) (off1_row32 t ht) arg7.view (harg7.unread S) _ (t'.val % 32) hlt hne r k).trans ?_
    refine (congrFun (harg7.read_unread S) _).trans ?_
    exact hS t' (by omega) (by omega) hlt r k

/-- A second-pass point stores nothing into the scratch, and is not itself a first-pass point. -/
theorem SInv_keep (c : Dev nD) (t : Fin cfg0.N) (ht : 16 ≤ t.val % 32) (S : Vec F S2048x2048 .f32)
    (hS : SInv m c (t.val - 1) S) : SInv m c t.val S := by
  unfold SInv
  intro t' hle hdiv hlt r k
  exact hS t' (by omega) (by omega) hlt r k

/-- The tile a second-pass point loads is the one the first-pass point sixteen points earlier computed. -/
theorem SInv_load (c : Dev nD) (t : Fin cfg0.N) (ht : 16 ≤ t.val % 32) (h3 : k0_cond3 (grid0.coords t) = 1#1)
    (S : Vec F S2048x2048 .f32) (hS : SInv m c (t.val - 1) S) :
    View.readAt (Elt F) arg7.view
        (Rect.unit (s := S2048x2048) (k0_off2 (grid0.coords t)) S128x2048.size (k0_off2_inb (grid0.coords t) h3)).toLoadRect
        (harg7.unread S)
      = sTile m c (tileOf t) := by
  funext x
  obtain ⟨r, k, rfl⟩ : ∃ (r : Fin 128) (k : Fin 2048), x = ix2 r k := ⟨x 0, x 1, eq_ix2 x⟩
  have hv : (tileOf t).val = t.val - 16 := rfl
  have hlt : (tileOf t).val % 32 < 16 := by omega
  have h0 : k0_off2 (grid0.coords t) 0 = 128 * ((tileOf t).val % 32) := (off2_row t).trans (by omega)
  refine (tile_readAt _ _ ((tileOf t).val % 32) hlt h0 (off2_col t) arg7.view (harg7.unread S) r k).trans ?_
  refine (congrFun (harg7.read_unread S) _).trans ?_
  exact hS (tileOf t) (by omega) (by omega) hlt r k

end Cert.KernelIdeal.Body

end
-- ==== Proof.KIBody.lean ====
/-
  The body obligation of the fused kernel's pipeline, in the three cases of the body's branches (a batch's
  first tile, the other first-pass tiles, the second pass), then the frame run and the frame.
-/
import proofs.«152487_j11081015624289_2_alg».proof.Proof.KIDat
import proofs.«152487_j11081015624289_2_alg».proof.Proof.KIPieces
import proofs.«152487_j11081015624289_2_alg».proof.Proof.KISInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  First pass: the point's tile of scores goes into the score scratch (which keeps the batch's
    earlier tiles), the running maximum and normaliser are updated (from −∞ and 0 at the batch's first tile), the output
    window is handed back untouched.  Second pass: the scratch buffers are only read, and the output's buffer ends at the
    point's output tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 256 := lt_of_lt_of_eq t.isLt (show cfg0.N = 256 from N_0)
  by_cases h2 : t.val % 32 < 16
  · have hc2 : cond2 (grid0.coords t) := (hcond2 t).mpr h2
    have hc3 : ¬cond3 (grid0.coords t) := fun h => by have := (hcond3 t).mp h; omega
    rw [Dat.leavesExact_idle (dats m 0 c) 3 t (idleAt0_3 t hc3) (noFlush0_3 t hc3)]
    by_cases h0 : t.val % 32 = 0
    · have hcA : condA (grid0.coords t) := (hcondA t).mpr h0
      rw [mlAt_first m c t h0]; unfold mlStep; dsimp only
      by_cases hz : t.val = 0
      · rw [PhiS_castSucc m c t, PhiS_zero m c _ _ hz, PhiA0_eq]
        iintro ⟨⟨⟨⟨%S, HS0⟩, ⟨%d1, HS1⟩, ⟨%d2, HS2⟩⟩, Hg⟩, Ho, ⟨%e0, H0⟩, ⟨%e1, H1⟩, ⟨%e2, H2⟩, ⟨%e3, H3⟩⟩
        iapply ((kernelRun0_A c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S d1 d2 _).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]
            · iexists _; isplitr; swap
              · unfold owns; iexists _; isplitr; swap; · iexact HS0
                ipureintro; rfl
              ipureintro; rw [pieceA_S]; exact SInv_first m scM0_0 (Memref.isWhole_whole _) c t h0 hc2 S
            isplitl [HS1]
            · unfold owns; iexists _; isplitr; swap; · iexact HS1
              ipureintro; exact pieceA_m ..
            · unfold owns; iexists _; isplitr; swap; · iexact HS2
              ipureintro; exact pieceA_l ..
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨⟨%S, %hS, HS0⟩, HS1, HS2⟩, Hg⟩, Ho, ⟨%e0, H0⟩, ⟨%e1, H1⟩, ⟨%e2, H2⟩, ⟨%e3, H3⟩⟩
        iapply ((kernelRun0_A c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _ _).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]
            · iexists _; isplitr; swap
              · unfold owns; iexists _; isplitr; swap; · iexact HS0
                ipureintro; rfl
              ipureintro; rw [pieceA_S]; exact SInv_first m scM0_0 (Memref.isWhole_whole _) c t h0 hc2 S
            isplitl [HS1]
            · unfold owns; iexists _; isplitr; swap; · iexact HS1
              ipureintro; exact pieceA_m ..
            · unfold owns; iexists _; isplitr; swap; · iexact HS2
              ipureintro; exact pieceA_l ..
          iexact Hg
        isplitl [Ho]; · iexact Ho
        isplitl [H0]; · iexact H0
        isplitl [H1]; · iexact H1
        isplitl [H2]; · iexact H2
        iexists _; iexact H3
    · have hcA : ¬condA (grid0.coords t) := fun h => h0 ((hcondA t).mp h)
      have hz : t.val ≠ 0 := fun e => h0 (by rw [e])
      rw [mlAt_pass1 m c t h0 h2]; unfold mlStep; dsimp only
      rw [PhiS_castSucc m c t, PhiS_pos m c _ _ hz]
      iintro ⟨⟨⟨⟨%S, %hS, HS0⟩, HS1, HS2⟩, Hg⟩, Ho, ⟨%e0, H0⟩, ⟨%e1, H1⟩, ⟨%e2, H2⟩, ⟨%e3, H3⟩⟩
      iapply ((kernelRun0_B c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _ _).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]
          · iexists _; isplitr; swap
            · unfold owns; iexists _; isplitr; swap; · iexact HS0
              ipureintro; rfl
            ipureintro; rw [pieceB_S]; exact SInv_step m scM0_0 (Memref.isWhole_whole _) c t h0 h2 hc2 S hS
          isplitl [HS1]
          · unfold owns; iexists _; isplitr; swap; · iexact HS1
            ipureintro; exact pieceB_m ..
          · unfold owns; iexists _; isplitr; swap; · iexact HS2
            ipureintro; exact pieceB_l ..
        iexact Hg
      isplitl [Ho]; · iexact Ho
      isplitl [H0]; · iexact H0
      isplitl [H1]; · iexact H1
      isplitl [H2]; · iexact H2
      iexists _; iexact H3
  · have h3 : 16 ≤ t.val % 32 := by omega
    have hc2 : ¬cond2 (grid0.coords t) := fun h => h2 ((hcond2 t).mp h)
    have hc3 : cond3 (grid0.coords t) := (hcond3 t).mpr h3
    have hcA : ¬condA (grid0.coords t) := fun h => by have := (hcondA t).mp h; omega
    have hz : t.val ≠ 0 := fun e => by rw [e] at h3; omega
    rw [show (dats m 0 c).leavesExact 3 t = owns (c : Thread nD τ) (ms0_3 t) fullShare ((dats m 0 c).after 3 t) from by
      unfold Dat.leavesExact; rw [liveAt0_3 t hc3], after0_3]
    rw [PhiS_castSucc m c t, PhiS_pos m c _ _ hz, mlAt_pass2 m c t h3]
    iintro ⟨⟨⟨⟨%S, %hS, HS0⟩, HS1, HS2⟩, Hg⟩, Ho, ⟨%e0, H0⟩, ⟨%e1, H1⟩, ⟨%e2, H2⟩, ⟨%e3, H3⟩⟩
    iapply ((kernelRun0_C c (grid0.coords t) _ (hs0_0 t) _ (hs0_1 t) _ (hs0_2 t) _ (hs0_3 t) scM0_0 (Memref.isWhole_whole _) scM0_1 (Memref.isWhole_whole _) scM0_2 (Memref.isWhole_whole _) hcA hc2 hc3 (iblk m c 0 t) (iblk m c 1 t) (iblk m c 2 t) S _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%f3, H3⟩, HS0, HS1, HS2⟩
    isplitl [HS0 HS1 HS2 Hg]
    · isplitl [HS0 HS1 HS2]
      · isplitl [HS0]
        · iexists S; isplitr
          · ipureintro; exact SInv_keep m c t h3 S hS
          · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr; swap; · iexact H3
    ipureintro
    rw [pieceC_o, SInv_load m scM0_0 (Memref.isWhole_whole _) c t h3 hc3 S hS]
    unfold out3; rw [mlAt_pass2 m c t h3]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨⟨%S, %hS, HS0⟩, HS1, HS2⟩, Hg⟩
  isplitl [HS0 HS1 HS2]
  · isplitl [HS0]; · iexists _; iexact HS0
    isplitl [HS1]; · iexists _; iexact HS1
    iexists _; iexact HS2
  iexact Hg

/-- At the compiled mesh, from any memory with zero counters: every weakly fair execution of @main terminates, and every final
    state has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KIBlocks.lean ====
/-
  The windows' blocks read at an index, and from the blocks written back to the result array.

  The grid has 8 · 2 · 16 = 256 points; point `t` has batch `t / 32`, pass `(t mod 32) / 16` and tile `t mod 16`.
  The query window's block at `t` is rows `128 · j … 128 · j + 127` of batch `t / 32` of the first argument, where
  `j` is the tile in the first pass and 15 throughout the second; the key and value windows' blocks are the whole
  batch `t / 32` of the second and third arguments (their arrays are those arguments converted to a narrower format
  before the region, which changes nothing at the ideal values).  The result window is written back exactly at
  the second-pass points, where its block is rows `128 · (t mod 16) …` of batch `t / 32`; those 128 blocks tile the
  result array, so an array function that every written block agrees with is what the array ends holding.
-/
import proofs.«152487_j11081015624289_2_alg».proof.Proof.KIRuns
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat)

variable {F : FTy → Type} [FloatOps F]

/-! ## The index maps over the grid -/

/-- The query window's block index: the batch, the tile in the first pass and the last tile in the second, 0. -/
theorem idx0 : ∀ t : Fin cfg0.N, win0_0.index t (0 : Fin 3) = t.val / 32
    ∧ win0_0.index t (1 : Fin 3) = (if t.val % 32 < 16 then t.val % 32 else 15)
    ∧ win0_0.index t (2 : Fin 3) = 0 :=
  (by decide +kernel : ∀ t : Fin grid0.N, _)

/-- The key window's block index: the batch, 0, 0. -/
theorem idx1 : ∀ t : Fin cfg0.N, win0_1.index t (0 : Fin 3) = t.val / 32
    ∧ win0_1.index t (1 : Fin 3) = 0 ∧ win0_1.index t (2 : Fin 3) = 0 :=
  (by decide +kernel : ∀ t : Fin grid0.N, _)

/-- The value window's block index: the batch, 0, 0. -/
theorem idx2 : ∀ t : Fin cfg0.N, win0_2.index t (0 : Fin 3) = t.val / 32
    ∧ win0_2.index t (1 : Fin 3) = 0 ∧ win0_2.index t (2 : Fin 3) = 0 :=
  (by decide +kernel : ∀ t : Fin grid0.N, _)

/-- The result window's block index: the batch, the tile in the second pass, 0. -/
theorem idx3 : ∀ t : Fin cfg0.N, win0_3.index t (0 : Fin 3) = t.val / 32
    ∧ (16 ≤ t.val % 32 → win0_3.index t (1 : Fin 3) = t.val % 32 - 16)
    ∧ win0_3.index t (2 : Fin 3) = 0 :=
  (by decide +kernel : ∀ t : Fin grid0.N, _)

/-- The result window's block is written back exactly at the second-pass points. -/
theorem flush3 : ∀ t : Fin cfg0.N, (cfg0.win 3).flush t = true ↔ 16 ≤ t.val % 32 :=
  (by decide +kernel : ∀ t : Fin grid0.N, _)

/-! ## The query window's block -/

/-- The query block at `t`, at `x`, is the first argument at any index `k` with the batch `t / 32`, the row
    `128 · j + x₁` and the feature `x₂`. -/
theorem iblk0_read (m : (ℓ : Loc nD τ sig) → Buf (Elt F) ℓ) (c : Dev nD) (t : Fin cfg0.N) (x : S1x128x1024.Idx) (k : S8x2048x1024.Idx)
    (hk0 : (k 0).val = t.val / 32)
    (hk1 : (k 1).val = 128 * (if t.val % 32 < 16 then t.val % 32 else 15) + (x 1).val)
    (hk2 : (k 2).val = (x 2).val) :
    (iblk m c 0 t : Vec F S1x128x1024 .f32) x = (m ((c.tc : Thread nD τ).loc main_arg0) : S8x2048x1024.Idx → Elt F .f32) k := by
  obtain ⟨e0, e1, e2⟩ := idx0 t
  have hx0 : (x 0).val < 1 := (x 0).isLt
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 1024 + 1 * (x 2).val = (k 2).val; rw [e2, hk2]; omega

theorem iblk0_apply (m : (ℓ : Loc nD τ sig) → Buf (Elt F) ℓ) (c : Dev nD) (t : Fin cfg0.N) (r : Fin 128) (d : Fin 1024) :
    iblk m c 0 t (ix3 (0 : Fin 1) r d)
      = m ((c.tc : Thread nD τ).loc main_arg0) (ix3 (⟨t.val / 32, by have := t.isLt; have : cfg0.N = 256 := N_0; omega⟩ : Fin 8)
          (⟨128 * (if t.val % 32 < 16 then t.val % 32 else 15) + r.val, by have := r.isLt; split <;> omega⟩ : Fin 2048) d) :=
  iblk0_read m c t _ _ rfl rfl rfl

/-! ## The key and value windows' blocks -/

/-- The key window's array, as the region finds it, is the second argument: the conversion before the region is
    the identity at the ideal values. -/
theorem V_main_v0 (m : (ℓ : Loc nD τ sig) → Buf (Elt Ideal) ℓ) (c : Dev nD) :
    (V m c main_v0 : S8x2048x1024.Idx → EReal) = m ((c.tc : Thread nD τ).loc main_arg1) := by
  dsimp only [Gen.V, Gen.hostOps0]; after_results; rfl

/-- The value window's array, as the region finds it, is the third argument. -/
theorem V_main_v1 (m : (ℓ : Loc nD τ sig) → Buf (Elt Ideal) ℓ) (c : Dev nD) :
    (V m c main_v1 : S8x2048x1024.Idx → EReal) = m ((c.tc : Thread nD τ).loc main_arg2) := by
  dsimp only [Gen.V, Gen.hostOps0]; after_results; rfl

/-- The key block at `t`, at `x`, is the second argument at any index with the batch `t / 32` and `x`'s row and
    feature. -/
theorem iblk1_read (m : (ℓ : Loc nD τ sig) → Buf (Elt Ideal) ℓ) (c : Dev nD) (t : Fin cfg0.N) (x : S1x2048x1024.Idx) (k : S8x2048x1024.Idx)
    (hk0 : (k 0).val = t.val / 32) (hk1 : (k 1).val = (x 1).val) (hk2 : (k 2).val = (x 2).val) :
    (iblk (F := Ideal) m c 1 t : S1x2048x1024.Idx → EReal) x = (m ((c.tc : Thread nD τ).loc main_arg1) : S8x2048x1024.Idx → EReal) k := by
  obtain ⟨e0, e1, e2⟩ := idx1 t
  have hx0 : (x 0).val < 1 := (x 0).isLt
  unfold iblk
  rw [View.read_apply]
  show (V m c main_v0 : S8x2048x1024.Idx → EReal) _ = _
  rw [V_main_v0]
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 2048 + 1 * (x 1).val = (k 1).val; rw [e1, hk1]; omega
  | ⟨2, _⟩ => show win0_1.index t (2 : Fin 3) * 1024 + 1 * (x 2).val = (k 2).val; rw [e2, hk2]; omega

theorem iblk1_apply (m : (ℓ : Loc nD τ sig) → Buf (Elt Ideal) ℓ) (c : Dev nD) (t : Fin cfg0.N) (k : Fin 2048) (d : Fin 1024) :
    iblk (F := Ideal) m c 1 t (ix3 (0 : Fin 1) k d)
      = m ((c.tc : Thread nD τ).loc main_arg1) (ix3 (⟨t.val / 32, by have := t.isLt; have : cfg0.N = 256 := N_0; omega⟩ : Fin 8) k d) :=
  iblk1_read m c t _ _ rfl rfl rfl

/-- The value block at `t`, at `x`, is the third argument at any index with the batch `t / 32` and `x`'s row and
    feature. -/
theorem iblk2_read (m : (ℓ : Loc nD τ sig) → Buf (Elt Ideal) ℓ) (c : Dev nD) (t : Fin cfg0.N) (x : S1x2048x1024.Idx) (k : S8x2048x1024.Idx)
    (hk0 : (k 0).val = t.val / 32) (hk1 : (k 1).val = (x 1).val) (hk2 : (k 2).val = (x 2).val) :
    (iblk (F := Ideal) m c 2 t : S1x2048x1024.Idx → EReal) x = (m ((c.tc : Thread nD τ).loc main_arg2) : S8x2048x1024.Idx → EReal) k := by
  obtain ⟨e0, e1, e2⟩ := idx2 t
  have hx0 : (x 0).val < 1 := (x 0).isLt
  unfold iblk
  rw [View.read_apply]
  show (V m c main_v1 : S8x2048x1024.Idx → EReal) _ = _
  rw [V_main_v1]
  congr 1
  funext a
  apply Fin.ext
  match a with
  | ⟨0, _⟩ => show win0_2.index t (0 : Fin 3) * 1 + 1 * (x 0).val = (k 0).val; rw [e0, hk0]; omega
  | ⟨1, _⟩ => show win0_2.index t (1 : Fin 3) * 2048 + 1 * (x 1).val = (k 1).val; rw [e1, hk1]; omega
  | ⟨2, _⟩ => show win0_2.index t (2 : Fin 3) * 1024 + 1 * (x 2).val = (k 2).val; rw [e2, hk2]; omega

theorem iblk2_apply (m : (ℓ : Loc nD τ sig) → Buf (Elt Ideal) ℓ) (c : Dev nD) (t : Fin cfg0.N) (k : Fin 2048) (d : Fin 1024) :
    iblk (F := Ideal) m c 2 t (ix3 (0 : Fin 1) k d)
      = m ((c.tc : Thread nD τ).loc main_arg2) (ix3 (⟨t.val / 32, by have := t.isLt; have : cfg0.N = 256 := N_0; omega⟩ : Fin 8) k d) :=
  iblk2_read m c t _ _ rfl rfl rfl

/-! ## From the blocks written back to the result array -/

/-- An index of the result array is in point `t`'s block iff each coordinate is in the block's range on its axis. -/
theorem mem_blk3 (t : Fin cfg0.N) (i : S8x2048x1024.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v2).slice (win0_3.rect t)).set ↔ _
  rw [View.set_slice_whole, Rect.mem_set_unit]
  exact Iff.rfl

/-- Every index (b, q, d) of the result array is in the block of the second-pass point `32 · b + 16 + q / 128`. -/
theorem cover3 (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  have hN : cfg0.N = 256 := N_0
  obtain ⟨t, ht⟩ : ∃ t : Fin cfg0.N, t.val = 32 * (i 0).val + 16 + (i 1).val / 128 :=
    ⟨⟨32 * (i 0).val + 16 + (i 1).val / 128, by omega⟩, rfl⟩
  obtain ⟨e0, e1, e2⟩ := idx3 t
  have e1 := e1 (by omega)
  refine ⟨t, (flush3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 128 ≤ (i 1).val ∧ (i 1).val < win0_3.index t (1 : Fin 3) * 128 + 128
    rw [e1]; omega
  | ⟨2, _⟩ =>
    show win0_3.index t (2 : Fin 3) * 1024 ≤ (i 2).val ∧ (i 2).val < win0_3.index t (2 : Fin 3) * 1024 + 1024
    rw [e2]; omega

/-- The block of an array function `G` at a second-pass point `t`, read at (0, r, d), is `G` at the batch `t / 32`,
    the row `128 · (t mod 16) + r` and the feature `d`. -/
theorem blk3_read (c : Dev nD) (G : Buf (Elt F) ((cfg0.win 3).arr.view.loc (c.tc : Thread nD τ))) (t : Fin cfg0.N)
    (h16 : 16 ≤ t.val % 32) (j : S1x128x1024.Idx) (k : S8x2048x1024.Idx)
    (hk0 : (k 0).val = t.val / 32) (hk1 : (k 1).val = 128 * (t.val % 32 - 16) + (j 1).val) (hk2 : (k 2).val = (j 2).val) :
    (((cfg0.win 3).blk t).view.read (Elt F) G : Vec F S1x128x1024 .f32) j = (G : S8x2048x1024.Idx → Elt F .f32) k := by
  obtain ⟨e0, e1, e2⟩ := idx3 t
  have e1 := e1 h16
  have hj0 : (j 0).val < 1 := (j 0).isLt
  rw [View.read_apply]
  show (G : S8x2048x1024.Idx → Elt F .f32) _ = (G : S8x2048x1024.Idx → Elt F .f32) k
  congr 1
  funext a
  apply Fin.ext
  match a with
  | ⟨0, _⟩ => show win0_3.index t (0 : Fin 3) * 1 + 1 * (j 0).val = (k 0).val; rw [e0, hk0]; omega
  | ⟨1, _⟩ => show win0_3.index t (1 : Fin 3) * 128 + 1 * (j 1).val = (k 1).val; rw [e1, hk1]; omega
  | ⟨2, _⟩ => show win0_3.index t (2 : Fin 3) * 1024 + 1 * (j 2).val = (k 2).val; rw [e2, hk2]; omega

/-- What a second-pass point writes back is its block of `G`, when what the body left in the window there is `G`
    at the block's rows. -/
theorem flushed3_eq (c : Dev nD) (dat : Dat τ (Elt F) Unit ℕ (UR sig nD τ) ℕ cfg0 c)
    (G : Buf (Elt F) ((cfg0.win 3).arr.view.loc (c.tc : Thread nD τ)))
    (hG : ∀ t : Fin cfg0.N, 16 ≤ t.val % 32 → ∀ (r : Fin 128) (d : Fin 1024),
      dat.after 3 t (ix3 (0 : Fin 1) r d)
        = G (ix3 (⟨t.val / 32, by have := t.isLt; have : cfg0.N = 256 := N_0; omega⟩ : Fin 8)
            (⟨128 * (t.val % 32 - 16) + r.val, by have := r.isLt; omega⟩ : Fin 2048) d))
    (t : Fin cfg0.N) (hf : (cfg0.win 3).flush t = true) :
    dat.flushed 3 t = ((cfg0.win 3).blk t).view.read (Elt F) G := by
  have h16 : 16 ≤ t.val % 32 := (flush3 t).mp hf
  funext j
  have hj0 : (j 0).val < 1 := (j 0).isLt
  have hj1 : (j 1).val < 128 := (j 1).isLt
  have hj2 : (j 2).val < 1024 := (j 2).isLt
  have ej : (cfg0.win 3).xinj (grid0.coords t) j = ix3 (0 : Fin 1) (⟨(j 1).val, hj1⟩ : Fin 128) (⟨(j 2).val, hj2⟩ : Fin 1024) :=
    funext fun a => Fin.ext (by
      match a with
      | ⟨0, _⟩ => show (j 0).val = 0; omega
      | ⟨1, _⟩ => rfl
      | ⟨2, _⟩ => rfl)
  show dat.after 3 t ((cfg0.win 3).xinj (grid0.coords t) j) = _
  refine (congrArg (dat.after 3 t) ej).trans ((hG t h16 _ _).trans ?_)
  exact (blk3_read c G t h16 j _ rfl rfl rfl).symm

/-- The result array after the run is `G`, when what the body leaves in the result window at every second-pass point
    is `G` at that point's rows: the written blocks tile the array. -/
theorem arr3_final (c : Dev nD) (dat : Dat τ (Elt F) Unit ℕ (UR sig nD τ) ℕ cfg0 c)
    (G : Buf (Elt F) ((cfg0.win 3).arr.view.loc (c.tc : Thread nD τ)))
    (hG : ∀ t : Fin cfg0.N, 16 ≤ t.val % 32 → ∀ (r : Fin 128) (d : Fin 1024),
      dat.after 3 t (ix3 (0 : Fin 1) r d)
        = G (ix3 (⟨t.val / 32, by have := t.isLt; have : cfg0.N = 256 := N_0; omega⟩ : Fin 8)
            (⟨128 * (t.val % 32 - 16) + r.val, by have := r.isLt; omega⟩ : Fin 2048) d)) :
    dat.arrAt 3 cfg0.N = G :=
  dat.arrAt_eq_of_cover 3 G (fun t hf => flushed3_eq c dat G hG t hf) cover3

end Cert.KernelIdeal.Body

end
-- ==== Proof.PayloadsAt.lean ====
/-
  The eight pure values the kernel's body computes, each read at one index on the extended reals:
  the starting rows (−∞ and 0), a tile of scores as a sum of products over the features, the running
  column maximum and normaliser after one tile, and the output tile as a sum over the key rows.
-/
import proofs.«152487_j11081015624289_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.QAttn.Pay

open Idealize.ShloMosaic Idealize.ShloMosaic.ValueIdx Cert.KernelIdeal Cert.KernelIdeal.Gen

/-! ## The three constant words -/

/-- The word `0xFF800000` is −∞. -/
theorem ofBits_negInf : Ideal.ofBits .f32 0xFF800000#32 = (⊥ : EReal) := by
  simp [Ideal.ofBits, Ideal.ieee]

/-- The word `0x3F800000` is the number one. -/
theorem ofBits_one : Ideal.ofBits .f32 0x3F800000#32 = (1 : EReal) := by
  simp [Ideal.ofBits, Ideal.ieee, -EReal.coe_mul]; norm_num

/-! ## The rows the first tile starts from -/

/-- The starting maximum is −∞ in every column. -/
theorem pay1_apply (k : Fin 2048) : k0_pay1 (F := Ideal) (ix2 (0 : Fin 1) k) = (⊥ : EReal) := by
  unfold k0_pay1
  rw [shapeCast_self]
  exact ofBits_negInf

/-- The starting normaliser is 0 in every column. -/
theorem pay2_apply (k : Fin 2048) : k0_pay2 (F := Ideal) (ix2 (0 : Fin 1) k) = (0 : EReal) := by
  unfold k0_pay2
  rw [shapeCast_self]
  exact Ideal.ofBits_zero_f32

/-! ## A tile of scores -/

/-- The dimension record of the score product: rows of the tile against key rows, over the features. -/
abbrev DS := dot_S128x1024_S2048x1024_S128x2048_1_1_0_0_n_n

/-- The coordinates of the score product's two operand indices, axis by axis. -/
theorem DS_lhs0 (i : S128x2048.Idx) (q : DS.contr.Idx) : (DS.lhsIdx i q 0).val = (i 0).val := by
  unfold DotDims.lhsIdx
  rw [dif_neg (show ¬(0 : Fin S128x1024.rank) ∈ DS.lhsBatch by decide),
    dif_pos (show (0 : Fin S128x1024.rank) ∈ DS.lhsNonContracting by decide)]
  rfl
theorem DS_lhs1 (i : S128x2048.Idx) (q : DS.contr.Idx) : (DS.lhsIdx i q 1).val = (q ⟨0, by decide⟩).val :=
  DS.lhsIdx_val_of_single rfl i q
theorem DS_rhs0 (i : S128x2048.Idx) (q : DS.contr.Idx) : (DS.rhsIdx i q 0).val = (i 1).val := by
  unfold DotDims.rhsIdx
  rw [dif_neg (show ¬(0 : Fin S2048x1024.rank) ∈ DS.rhsBatch by decide),
    dif_pos (show (0 : Fin S2048x1024.rank) ∈ DS.rhsNonContracting by decide)]
  rfl
theorem DS_rhs1 (i : S128x2048.Idx) (q : DS.contr.Idx) : (DS.rhsIdx i q 1).val = (q ⟨0, by decide⟩).val :=
  DS.rhsIdx_val_of_single rfl i q

/-- The left operand's index of the score product at `(r, k)` and feature `d` is `(r, d)`. -/
theorem DS_lhsIdx (r : Fin 128) (k : Fin 2048) (d : Fin 1024) :
    DS.lhsIdx (ix2 r k) ((contrEquiv1 DS 1024 rfl rfl).symm d) = ix2 r d := by
  have hk := contrEquiv1_symm_val DS 1024 rfl rfl d
  refine funext fun a => Fin.ext ?_
  match a with
  | ⟨0, _⟩ => exact DS_lhs0 _ _
  | ⟨1, _⟩ => exact (DS_lhs1 _ _).trans hk

/-- The right operand's index of the score product at `(r, k)` and feature `d` is `(k, d)`. -/
theorem DS_rhsIdx (r : Fin 128) (k : Fin 2048) (d : Fin 1024) :
    DS.rhsIdx (ix2 r k) ((contrEquiv1 DS 1024 rfl rfl).symm d) = ix2 k d := by
  have hk := contrEquiv1_symm_val DS 1024 rfl rfl d
  refine funext fun a => Fin.ext ?_
  match a with
  | ⟨0, _⟩ => exact DS_rhs0 _ _
  | ⟨1, _⟩ => exact (DS_rhs1 _ _).trans hk

/-- One entry of the tile of scores: the sum over the features of query row times key row. -/
theorem pay3_apply (x : Vec Ideal S1x128x1024 .f32) (y : Vec Ideal S1x2048x1024 .bf16) (r : Fin 128) (k : Fin 2048) :
    k0_pay3 (F := Ideal) x y (ix2 r k) = ∑ d : Fin 1024, x (ix3 (0 : Fin 1) r d) * y (ix3 (0 : Fin 1) k d) := by
  unfold k0_pay3
  refine (Ideal.matmul_constant_zero_apply DS none _ _ (ix2 r k)).trans ?_
  rw [← Equiv.sum_comp (contrEquiv1 DS 1024 rfl rfl).symm]
  refine Finset.sum_congr rfl fun d _ => ?_
  rw [DS_lhsIdx, DS_rhsIdx, truncf_apply, shapeCast_1ab_ab_apply, shapeCast_1ab_ab_apply]

/-- The stored tile is the tile of scores. -/
theorem pay4_apply (x : Vec Ideal S1x128x1024 .f32) (y : Vec Ideal S1x2048x1024 .bf16) (r : Fin 128) (k : Fin 2048) :
    k0_pay4 (F := Ideal) x y (ix2 r k) = k0_pay3 (F := Ideal) x y (ix2 r k) := by
  unfold k0_pay4
  rw [shapeCast_self]

/-- The stored maximum row is the updated running maximum. -/
theorem pay7_apply (x : Vec Ideal S1x128x1024 .f32) (y : Vec Ideal S1x2048x1024 .bf16) (mo : Vec Ideal S1x2048 .f32)
    (k : Fin 2048) :
    k0_pay7 (F := Ideal) x y mo (ix2 (0 : Fin 1) k) = k0_pay5 (F := Ideal) x y mo (ix2 (0 : Fin 1) k) := by
  unfold k0_pay7
  rw [shapeCast_self]

/-! ## The running column maximum after one tile -/

/-- The source index of row `r` over column `k` is `(r, k)`. -/
theorem lift_rows (h : S128x2048.Reduces [0] S2048) (k : Fin 2048) (r : Fin 128) : h.lift (ix1 k) r = ix2 r k := by
  refine funext fun a => Fin.ext ?_
  match a with
  | ⟨0, _⟩ => rfl
  | ⟨1, _⟩ => rfl

/-- A maximum over the tile's rows from −∞, read at column `k`, is the supremum of that column. -/
theorem colMaximum_apply (src : FVec Ideal S128x2048 .f32) (h : S128x2048.Reduces [0] S2048) (hφ : FKind.Formats .f32)
    (hacc : (0xFF800000#32 : BitVec 32) = 0xFF800000#32) (k : Fin 2048) :
    multiReduction .maximumf [0] S2048 src 0xFF800000#32 h hφ hacc (ix1 k)
      = (Finset.univ : Finset (Fin 128)).sup fun r => src (ix2 r k) := by
  refine (Ideal.multiReduction_maximumf_single src 0xFF800000#32 h hφ hacc (ix1 k)).trans ?_
  show Finset.fold max (Ideal.ofBits .f32 0xFF800000#32) (fun r : Fin 128 => src (h.lift (ix1 k) r)) Finset.univ = _
  simp only [lift_rows, ofBits_negInf]
  rfl

/-- The running maximum of column `k` after the tile: the greater of the old one and the tile's column maximum. -/
theorem pay5_apply (x : Vec Ideal S1x128x1024 .f32) (y : Vec Ideal S1x2048x1024 .bf16) (mo : Vec Ideal S1x2048 .f32)
    (k : Fin 2048) :
    k0_pay5 (F := Ideal) x y mo (ix2 (0 : Fin 1) k)
      = max (mo (ix2 (0 : Fin 1) k)) ((Finset.univ : Finset (Fin 128)).sup fun r => k0_pay3 (F := Ideal) x y (ix2 r k)) := by
  unfold k0_pay5
  refine (maximumf_apply _ _ _).trans ?_
  refine congrArg (max (mo (ix2 (0 : Fin 1) k))) ?_
  refine (shapeCast_a_1a_apply _ _ (0 : Fin 1) k).trans ?_
  exact colMaximum_apply _ _ _ _ k

/-! ## The running normaliser after one tile -/

/-- A sum over the tile's rows from zero, read at column `k`, is the sum of that column. -/
theorem colSum_apply (src : FVec Ideal S128x2048 .f32) (h : S128x2048.Reduces [0] S2048) (hφ : FKind.Formats .f32)
    (hacc : (0x00000000#32 : BitVec 32) = 0x00000000#32) (k : Fin 2048) :
    multiReduction .add [0] S2048 src 0x00000000#32 h hφ hacc (ix1 k) = ∑ r : Fin 128, src (ix2 r k) := by
  refine (Ideal.multiReduction_add_single src 0x00000000#32 h hφ hacc (ix1 k)).trans ?_
  show ∑ r : Fin 128, src (h.lift (ix1 k) r) = _
  simp only [lift_rows]

/-- The running normaliser of column `k` after the tile: the old one rescaled to the new maximum, plus the
    tile's exponentials shifted by the new maximum. -/
theorem pay6_apply (x : Vec Ideal S1x128x1024 .f32) (y : Vec Ideal S1x2048x1024 .bf16)
    (mo mo' lo : Vec Ideal S1x2048 .f32) (k : Fin 2048) :
    k0_pay6 (F := Ideal) x y mo mo' lo (ix2 (0 : Fin 1) k)
      = Ideal.exp (mo' (ix2 (0 : Fin 1) k) - k0_pay5 (F := Ideal) x y mo (ix2 (0 : Fin 1) k)) * lo (ix2 (0 : Fin 1) k)
        + ∑ r : Fin 128, Ideal.exp (k0_pay3 (F := Ideal) x y (ix2 r k) - k0_pay5 (F := Ideal) x y mo (ix2 (0 : Fin 1) k)) := by
  unfold k0_pay6
  rw [shapeCast_self]
  refine (addf_apply _ _ _).trans ?_
  refine congrArg₂ (fun a b : EReal => a + b) rfl ?_
  refine (shapeCast_a_1a_apply _ _ (0 : Fin 1) k).trans ?_
  refine (colSum_apply _ _ _ _ k).trans ?_
  refine Finset.sum_congr rfl fun r _ => ?_
  show Ideal.exp (k0_pay3 (F := Ideal) x y (ix2 r k)
      - broadcastTo S128x2048 (k0_pay5 (F := Ideal) x y mo) _ (ix2 r k)) = _
  rw [broadcastTo_1b_ab_apply]

/-! ## The output tile -/

/-- The dimension record of the output product: weights of the tile against the value block, over the key rows. -/
abbrev DV := dot_S128x2048_S2048x1024_S128x1024_1_0_0_1_n_n

/-- The coordinates of the output product's two operand indices, axis by axis. -/
theorem DV_lhs0 (i : S128x1024.Idx) (q : DV.contr.Idx) : (DV.lhsIdx i q 0).val = (i 0).val := by
  unfold DotDims.lhsIdx
  rw [dif_neg (show ¬(0 : Fin S128x2048.rank) ∈ DV.lhsBatch by decide),
    dif_pos (show (0 : Fin S128x2048.rank) ∈ DV.lhsNonContracting by decide)]
  rfl
theorem DV_lhs1 (i : S128x1024.Idx) (q : DV.contr.Idx) : (DV.lhsIdx i q 1).val = (q ⟨0, by decide⟩).val :=
  DV.lhsIdx_val_of_single rfl i q
theorem DV_rhs0 (i : S128x1024.Idx) (q : DV.contr.Idx) : (DV.rhsIdx i q 0).val = (q ⟨0, by decide⟩).val :=
  DV.rhsIdx_val_of_single rfl i q
theorem DV_rhs1 (i : S128x1024.Idx) (q : DV.contr.Idx) : (DV.rhsIdx i q 1).val = (i 1).val := by
  unfold DotDims.rhsIdx
  rw [dif_neg (show ¬(1 : Fin S2048x1024.rank) ∈ DV.rhsBatch by decide),
    dif_pos (show (1 : Fin S2048x1024.rank) ∈ DV.rhsNonContracting by decide)]
  rfl

/-- The left operand's index of the output product at `(r, d)` and key row `k` is `(r, k)`. -/
theorem DV_lhsIdx (r : Fin 128) (d : Fin 1024) (k : Fin 2048) :
    DV.lhsIdx (ix2 r d) ((contrEquiv1 DV 2048 rfl rfl).symm k) = ix2 r k := by
  have hk := contrEquiv1_symm_val DV 2048 rfl rfl k
  refine funext fun a => Fin.ext ?_
  match a with
  | ⟨0, _⟩ => exact DV_lhs0 _ _
  | ⟨1, _⟩ => exact (DV_lhs1 _ _).trans hk

/-- The right operand's index of the output product at `(r, d)` and key row `k` is `(k, d)`. -/
theorem DV_rhsIdx (r : Fin 128) (d : Fin 1024) (k : Fin 2048) :
    DV.rhsIdx (ix2 r d) ((contrEquiv1 DV 2048 rfl rfl).symm k) = ix2 k d := by
  have hk := contrEquiv1_symm_val DV 2048 rfl rfl k
  refine funext fun a => Fin.ext ?_
  match a with
  | ⟨0, _⟩ => exact (DV_rhs0 _ _).trans hk
  | ⟨1, _⟩ => exact DV_rhs1 _ _

/-- One entry of the output tile: the sum over the key rows of the shifted exponential of the score times the
    reciprocal of the normaliser times the value. -/
theorem pay8_apply (s : Vec Ideal S128x2048 .f32) (mv lv : Vec Ideal S1x2048 .f32) (v : Vec Ideal S1x2048x1024 .bf16)
    (r : Fin 128) (d : Fin 1024) :
    k0_pay8 (F := Ideal) s mv lv v (ix3 (0 : Fin 1) r d)
      = ∑ k : Fin 2048, (Ideal.exp (s (ix2 r k) - mv (ix2 (0 : Fin 1) k)) * Ideal.div 1 (lv (ix2 (0 : Fin 1) k)))
          * v (ix3 (0 : Fin 1) k d) := by
  unfold k0_pay8
  refine (shapeCast_ab_1ab_apply _ _ (0 : Fin 1) r d).trans ?_
  refine (Ideal.matmul_constant_zero_apply DV none _ _ (ix2 r d)).trans ?_
  rw [← Equiv.sum_comp (contrEquiv1 DV 2048 rfl rfl).symm]
  refine Finset.sum_congr rfl fun k _ => ?_
  rw [DV_lhsIdx, DV_rhsIdx, shapeCast_1ab_ab_apply]
  refine congrArg (fun a : EReal => a * v (ix3 (0 : Fin 1) k d)) ?_
  show Ideal.exp (s (ix2 r k) - broadcastTo S128x2048 mv _ (ix2 r k))
      * broadcastTo S128x2048 (divf (broadcast S1x2048 (Scalar.ofBits (F := Ideal) .f32 0x3F800000#32)) lv) _ (ix2 r k) = _
  rw [broadcastTo_1b_ab_apply, broadcastTo_1b_ab_apply]
  show Ideal.exp (s (ix2 r k) - mv (ix2 (0 : Fin 1) k))
      * Ideal.div (Ideal.ofBits .f32 0x3F800000#32) (lv (ix2 (0 : Fin 1) k)) = _
  rw [ofBits_one]

end Cert.QAttn.Pay

end
-- ==== Proof.OnlineMath.lean ====
/-
  The extended-real algebra of accumulating a column's maximum and normaliser tile by tile.

  The scores of one key column are real numbers `s q`.  Their maximum over a nonempty set of rows is a
  real; the normaliser `∑_q exp (s q − max)` over a nonempty set is a positive real; and when a new
  nonempty tile `T` of rows is met after the rows `A`, the normaliser over `A ∪ T` is the old normaliser
  rescaled by `exp (max_A − max_{A ∪ T})` plus the tile's own terms, because
  `exp (m − M') · exp (s q − m) = exp (s q − M')`.
-/
import Idealize.ShloMosaic.PureOps.Ideal

noncomputable section

open scoped BigOperators

namespace Cert.QAttn.Online

open Idealize.ShloMosaic

/-- The coercion of a finite sum of reals is the sum of the coercions. -/
theorem coe_sum {κ : Type} (f : κ → ℝ) (D : Finset κ) :
    ((∑ d ∈ D, f d : ℝ) : EReal) = ∑ d ∈ D, (f d : EReal) := by
  classical
  induction D using Finset.induction_on with
  | empty => simp
  | insert a t ha ih => rw [Finset.sum_insert ha, Finset.sum_insert ha, EReal.coe_add, ih]

/-- A product-sum of real entries is a real. -/
theorem sum_mul_coe {κ : Type} (a b : κ → ℝ) (D : Finset κ) :
    ∑ d ∈ D, ((a d : EReal) * (b d : EReal)) = ((∑ d ∈ D, a d * b d : ℝ) : EReal) := by
  rw [coe_sum]
  exact Finset.sum_congr rfl fun d _ => (EReal.coe_mul _ _).symm

/-- The maximum of real scores over a nonempty set is a real bounding them. -/
theorem sup_coe {ι : Type} (s : ι → ℝ) (B : Finset ι) (hB : B.Nonempty) :
    ∃ M : ℝ, B.sup (fun q => (s q : EReal)) = (M : EReal) ∧ ∀ q ∈ B, s q ≤ M := by
  classical
  induction hB using Finset.Nonempty.cons_induction with
  | singleton a => exact ⟨s a, by simp, by simp⟩
  | cons a t ha ht ih =>
    obtain ⟨M, hM, hle⟩ := ih
    refine ⟨max (s a) M, ?_, ?_⟩
    · rw [Finset.sup_cons, hM]
      exact (EReal.coe_strictMono.monotone.map_max).symm
    · intro q hq
      rw [Finset.mem_cons] at hq
      rcases hq with rfl | hq
      · exact le_max_left _ _
      · exact (hle q hq).trans (le_max_right _ _)

/-- Maximum over a union. -/
theorem sup_union' {ι : Type} [DecidableEq ι] (s : ι → ℝ) (A T : Finset ι) :
    max (A.sup fun q => (s q : EReal)) (T.sup fun q => (s q : EReal))
      = (A ∪ T).sup fun q => (s q : EReal) :=
  Finset.sup_union.symm

/-- The normaliser's terms against a real shift are real exponentials. -/
theorem sum_exp_coe {ι : Type} (s : ι → ℝ) (B : Finset ι) (M : ℝ) :
    ∑ q ∈ B, Ideal.exp ((s q : EReal) - (M : EReal)) = ((∑ q ∈ B, Real.exp (s q - M) : ℝ) : EReal) := by
  rw [coe_sum]
  refine Finset.sum_congr rfl fun q _ => ?_
  rw [← EReal.coe_sub, Ideal.exp_coe]

/-- THE RESCALING STEP.  With `MA` the maximum over the rows seen so far (`⊥` when there are none) and
    `M'` the maximum after a new nonempty tile `T`, rescaling the old normaliser by `exp (MA − M')` and
    adding the tile's terms gives the normaliser over `A ∪ T`.  (When `A` is empty `MA = ⊥`,
    `exp (⊥ − M') = exp ⊥ = 0` and the old normaliser is the empty sum `0`.) -/
theorem rescale_step {ι : Type} [DecidableEq ι] (s : ι → ℝ) (A T : Finset ι) (hd : Disjoint A T)
    (hT : T.Nonempty) :
    Ideal.exp ((A.sup fun q => (s q : EReal)) - ((A ∪ T).sup fun q => (s q : EReal)))
          * (∑ q ∈ A, Ideal.exp ((s q : EReal) - (A.sup fun q => (s q : EReal))))
        + ∑ q ∈ T, Ideal.exp ((s q : EReal) - ((A ∪ T).sup fun q => (s q : EReal)))
      = ∑ q ∈ A ∪ T, Ideal.exp ((s q : EReal) - ((A ∪ T).sup fun q => (s q : EReal))) := by
  obtain ⟨M', hM', -⟩ := sup_coe s (A ∪ T) (hT.mono Finset.subset_union_right)
  rw [hM']
  rcases A.eq_empty_or_nonempty with rfl | hA
  · simp
  · obtain ⟨m, hm, -⟩ := sup_coe s A hA
    rw [hm, sum_exp_coe, sum_exp_coe, sum_exp_coe, ← EReal.coe_sub, Ideal.exp_coe, ← EReal.coe_mul,
      ← EReal.coe_add, Finset.sum_union hd, Finset.mul_sum]
    congr 2
    refine Finset.sum_congr rfl fun q _ => ?_
    rw [← Real.exp_add]
    congr 1
    ring

/-- The normaliser over a nonempty set of real scores is a positive real. -/
theorem colsum_pos {ι : Type} (s : ι → ℝ) (B : Finset ι) (hB : B.Nonempty) :
    ∃ L : ℝ, 0 < L ∧ ∑ q ∈ B, Ideal.exp ((s q : EReal) - (B.sup fun q => (s q : EReal))) = (L : EReal) := by
  obtain ⟨M, hM, -⟩ := sup_coe s B hB
  rw [hM, sum_exp_coe]
  exact ⟨_, Finset.sum_pos (fun q _ => Real.exp_pos _) hB, rfl⟩

/-- Multiplying by the reciprocal of a nonzero real is dividing by it. -/
theorem mul_one_div (a : EReal) (L : ℝ) (hL : L ≠ 0) :
    a * Ideal.div 1 (L : EReal) = Ideal.div a (L : EReal) := by
  rw [Ideal.div_coe hL, Ideal.div_coe hL, one_mul]

/-- The f32 word `0x3F800000` (sign 0, exponent 127, fraction 0) is the number one. -/
theorem ofBits_one : Ideal.ofBits .f32 0x3F800000#32 = (1 : EReal) := by
  simp [Ideal.ofBits, Ideal.ieee, -EReal.coe_mul]; norm_num

/-- The f32 word `0xFF800000` (sign 1, all-ones exponent, fraction 0) is `−∞`. -/
theorem ofBits_neg_inf : Ideal.ofBits .f32 0xFF800000#32 = (⊥ : EReal) := by
  simp [Ideal.ofBits, Ideal.ieee]

/-- The zero word is the number zero. -/
theorem ofBits_zero : Ideal.ofBits .f32 0x00000000#32 = (0 : EReal) := by
  simp [Ideal.ofBits, Ideal.ieee]

end Cert.QAttn.Online

end
-- ==== Proof.TileFold.lean ====
/-
  The tile-by-tile recursion on ONE key column, against the whole column's maximum and normaliser.

  The column's scores are `s 0, s 1, …`, all real.  The rows are met in tiles of 128: after `j` tiles
  the running maximum `tM s j` is the maximum of the first `128 · j` scores (`⊥` before any tile) and
  the running normaliser `tL s j` is `∑_{q < 128 · j} exp (s q − tM s j)`: each new tile raises the
  maximum to the maximum over the rows met so far, rescales the old normaliser by
  `exp (old maximum − new maximum)` and adds the tile's own terms.  After 16 tiles these are the
  maximum and the normaliser of the whole column of 2048 rows.
-/
import proofs.«152487_j11081015624289_2_alg».proof.Proof.OnlineMath

noncomputable section

open scoped BigOperators

namespace Cert.QAttn.Online

open Idealize.ShloMosaic

/-- The running maximum after `j` tiles of 128 rows. -/
def tM (s : ℕ → EReal) : ℕ → EReal
  | 0 => ⊥
  | j+1 => max (tM s j) ((Finset.univ : Finset (Fin 128)).sup fun r => s (128 * j + r.val))

/-- The running normaliser after `j` tiles of 128 rows. -/
def tL (s : ℕ → EReal) : ℕ → EReal
  | 0 => 0
  | j+1 => Ideal.exp (tM s j - tM s (j+1)) * tL s j
      + ∑ r : Fin 128, Ideal.exp (s (128 * j + r.val) - tM s (j+1))

/-- A maximum over the `n` rows of a tile starting at `a` is the maximum over the interval `[a, a + n)`. -/
theorem sup_fin_tile (g : ℕ → EReal) (a n : ℕ) :
    (Finset.univ : Finset (Fin n)).sup (fun r => g (a + r.val)) = (Finset.Ico a (a + n)).sup g := by
  refine le_antisymm (Finset.sup_le fun r _ => ?_) (Finset.sup_le fun q hq => ?_)
  · exact Finset.le_sup (f := g)
      (Finset.mem_Ico.2 ⟨Nat.le_add_right _ _, Nat.add_lt_add_left r.isLt _⟩)
  · obtain ⟨h1, h2⟩ := Finset.mem_Ico.1 hq
    have e : a + (q - a) = q := by omega
    have h3 : g (a + (q - a)) ≤ (Finset.univ : Finset (Fin n)).sup (fun r => g (a + r.val)) :=
      Finset.le_sup (f := fun r : Fin n => g (a + r.val))
        (Finset.mem_univ (⟨q - a, by omega⟩ : Fin n))
    rwa [e] at h3

/-- A maximum over `Fin n` is the maximum over the first `n` naturals. -/
theorem sup_fin_range (g : ℕ → EReal) (n : ℕ) :
    (Finset.univ : Finset (Fin n)).sup (fun r => g r.val) = (Finset.range n).sup g := by
  refine le_antisymm (Finset.sup_le fun r _ => ?_) (Finset.sup_le fun q hq => ?_)
  · exact Finset.le_sup (f := g) (Finset.mem_range.2 r.isLt)
  · exact Finset.le_sup (f := fun r : Fin n => g r.val)
      (Finset.mem_univ (⟨q, Finset.mem_range.1 hq⟩ : Fin n))

/-- A sum over the `n` rows of a tile starting at `a` is the sum over the interval `[a, a + n)`. -/
theorem sum_fin_tile (g : ℕ → EReal) (a n : ℕ) :
    ∑ r : Fin n, g (a + r.val) = ∑ q ∈ Finset.Ico a (a + n), g q := by
  rw [Finset.sum_Ico_eq_sum_range, Nat.add_sub_cancel_left]
  exact Fin.sum_univ_eq_sum_range (fun i => g (a + i)) n

/-- The rows of the first `j + 1` tiles are those of the first `j` tiles and those of the next tile. -/
theorem range_succ_tile (j : ℕ) :
    Finset.range (128 * (j + 1))
      = Finset.range (128 * j) ∪ Finset.Ico (128 * j) (128 * j + 128) := by
  ext q
  simp only [Finset.mem_range, Finset.mem_union, Finset.mem_Ico]
  omega

/-- The next tile's rows are none of the rows met before. -/
theorem tile_disjoint (j : ℕ) :
    Disjoint (Finset.range (128 * j)) (Finset.Ico (128 * j) (128 * j + 128)) := by
  refine Finset.disjoint_left.2 fun q h1 h2 => ?_
  have h3 := Finset.mem_range.1 h1
  have h4 := (Finset.mem_Ico.1 h2).1
  omega

/-- A tile has a row. -/
theorem tile_nonempty (j : ℕ) : (Finset.Ico (128 * j) (128 * j + 128)).Nonempty :=
  ⟨128 * j, Finset.mem_Ico.2 ⟨le_rfl, by omega⟩⟩

/-- The running maximum after `j` tiles is the maximum of the first `128 · j` scores. -/
theorem tM_eq (s : ℕ → EReal) (hs : ∀ n, ∃ r : ℝ, s n = (r : EReal)) (j : ℕ) :
    tM s j = (Finset.range (128 * j)).sup s := by
  induction j with
  | zero => simp [tM]
  | succ j ih =>
    rw [tM, ih, sup_fin_tile s (128 * j) 128, range_succ_tile, Finset.sup_union]

/-- The running normaliser after `j` tiles is the normaliser of the first `128 · j` scores against
    their maximum: the rescaling step, once per tile. -/
theorem tL_eq (s : ℕ → EReal) (hs : ∀ n, ∃ r : ℝ, s n = (r : EReal)) (j : ℕ) :
    tL s j = ∑ q ∈ Finset.range (128 * j), Ideal.exp (s q - tM s j) := by
  induction j with
  | zero => simp [tL]
  | succ j ih =>
    choose f hf using hs
    have key := rescale_step f (Finset.range (128 * j)) (Finset.Ico (128 * j) (128 * j + 128))
      (tile_disjoint j) (tile_nonempty j)
    simp only [← hf] at key
    rw [← range_succ_tile] at key
    have hs' : ∀ n, ∃ r : ℝ, s n = (r : EReal) := fun n => ⟨f n, hf n⟩
    have e : ∑ r : Fin 128, Ideal.exp (s (128 * j + r.val) - tM s (j + 1))
        = ∑ q ∈ Finset.Ico (128 * j) (128 * j + 128), Ideal.exp (s q - tM s (j + 1)) :=
      sum_fin_tile (fun q => Ideal.exp (s q - tM s (j + 1))) (128 * j) 128
    rw [tL, ih, e, tM_eq s hs' j, tM_eq s hs' (j + 1)]
    exact key

/-- After all 16 tiles the running maximum is the maximum of the whole column. -/
theorem tM_16 (s : ℕ → EReal) (hs : ∀ n, ∃ r : ℝ, s n = (r : EReal)) :
    tM s 16 = (Finset.univ : Finset (Fin 2048)).sup fun q => s q.val := by
  rw [tM_eq s hs 16, sup_fin_range s 2048]

/-- After all 16 tiles the running normaliser is the normaliser of the whole column. -/
theorem tL_16 (s : ℕ → EReal) (hs : ∀ n, ∃ r : ℝ, s n = (r : EReal)) :
    tL s 16 = ∑ q : Fin 2048, Ideal.exp (s q.val - tM s 16) :=
  (tL_eq s hs 16).trans
    (Fin.sum_univ_eq_sum_range (fun q => Ideal.exp (s q - tM s 16)) 2048).symm

/-- The whole column's normaliser is a positive real. -/
theorem tL_16_pos (s : ℕ → EReal) (hs : ∀ n, ∃ r : ℝ, s n = (r : EReal)) :
    ∃ L : ℝ, 0 < L ∧ tL s 16 = (L : EReal) := by
  have hs' := hs
  choose f hf using hs'
  obtain ⟨L, hL, e⟩ := colsum_pos f (Finset.range (128 * 16)) ⟨0, Finset.mem_range.2 (by norm_num)⟩
  simp only [← hf] at e
  refine ⟨L, hL, ?_⟩
  rw [tL_eq s hs 16, tM_eq s hs 16]
  exact e

end Cert.QAttn.Online

end
-- ==== Proof.Spec.lean ====
/-
  Attention whose softmax runs over the QUERY axis, as one function of the three argument arrays,
  on the extended reals.  For a batch `b`, a query row `q`, a key row `k` and a feature `d`:

    score b q k  = ∑_d Q[b,q,d] · K[b,k,d]
    colMax b k   = the greatest score of column `k` over all query rows
    colSum b k   = ∑_q exp (score b q k − colMax b k)
    weight b q k = exp (score b q k − colMax b k) / colSum b k
    out[b,q,d]   = ∑_k weight b q k · V[b,k,d]

  Both programs are shown to compute `out`: the reference directly, the kernel by accumulating
  `colMax` and `colSum` tile by tile over the query rows and rescaling the running sum whenever the
  running maximum grows.
-/
import Idealize.ShloMosaic.PureOps.Ideal
import Idealize.ShloMosaic.Lib.ValueIdx

noncomputable section

open scoped BigOperators

namespace Cert.QAttn

open Idealize.ShloMosaic Idealize.ShloMosaic.ValueIdx

/-- The shape of each argument array and of the result: batch × row × feature. -/
abbrev SArr : Shape := ⟨3, ![8, 2048, 1024]⟩

/-- `score b q k = ∑_d Q[b,q,d] · K[b,k,d]`. -/
def score (Q K : SArr.Idx → EReal) (b : Fin 8) (q k : Fin 2048) : EReal :=
  ∑ d : Fin 1024, Q (ix3 b q d) * K (ix3 b k d)

/-- The greatest score of key column `k` over all query rows. -/
def colMax (Q K : SArr.Idx → EReal) (b : Fin 8) (k : Fin 2048) : EReal :=
  (Finset.univ : Finset (Fin 2048)).sup fun q => score Q K b q k

/-- The normaliser of key column `k`: the exponentials of the scores, shifted by the column's maximum, summed over the query rows. -/
def colSum (Q K : SArr.Idx → EReal) (b : Fin 8) (k : Fin 2048) : EReal :=
  ∑ q : Fin 2048, Ideal.exp (score Q K b q k - colMax Q K b k)

/-- The softmax weight of query row `q` in key column `k`. -/
def weight (Q K : SArr.Idx → EReal) (b : Fin 8) (q k : Fin 2048) : EReal :=
  Ideal.div (Ideal.exp (score Q K b q k - colMax Q K b k)) (colSum Q K b k)

/-- One entry of the result. -/
def outAt (Q K V : SArr.Idx → EReal) (b : Fin 8) (q : Fin 2048) (d : Fin 1024) : EReal :=
  ∑ k : Fin 2048, weight Q K b q k * V (ix3 b k d)

/-- The result array. -/
def out (Q K V : SArr.Idx → EReal) : SArr.Idx → EReal :=
  fun i => outAt Q K V (i 0) (i 1) (i 2)

theorem out_ix3 (Q K V : SArr.Idx → EReal) (b : Fin 8) (q : Fin 2048) (d : Fin 1024) :
    out Q K V (ix3 b q d) = outAt Q K V b q d := rfl

end Cert.QAttn

end
-- ==== Proof.KIColumns.lean ====
/-
  The running pair of every key column, point by point, and the output tile, as functions of the argument arrays.

  Fix a batch `b` and a key column `k`.  Its scores by query row, `sCol b k n = score b n k`, are real
  numbers.  A first-pass point `t` of the batch works on tile `j = t % 32`: its tile of scores is
  `sCol b k (128·j + r)` at row `r`, and its update of the running pair is one step of the recursion
  `tM`, `tL`; the pair is reset before tile 0 and the second pass leaves it alone.  So after point `t` the
  pair of column `k` is `(tM s n, tL s n)` with `n = min (t % 32 + 1) 16` tiles met, and during the second
  pass it is the column's maximum and normaliser, `colMax` and `colSum`.  A second-pass point then computes
  `∑_k exp (score − colMax) · (1 / colSum) · V`, and since `colSum` is a nonzero real this is
  `∑_k weight · V`, the specified entry.
-/
import proofs.«152487_j11081015624289_2_alg».proof.Proof.KIState
import proofs.«152487_j11081015624289_2_alg».proof.Proof.PayloadsAt
import proofs.«152487_j11081015624289_2_alg».proof.Proof.TileFold
import proofs.«152487_j11081015624289_2_alg».proof.Proof.Spec

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QAttn Cert.QAttn.Online Cert.QAttn.Pay Idealize.ShloMosaic.ValueIdx

/-! ## One key column's scores, listed by query row -/

section Column

variable (Q K : SArr.Idx → EReal)

/-- The scores of key column `k` of batch `b` by query row; `0` past the last row. -/
def sCol (b : Fin 8) (k : Fin 2048) : ℕ → EReal :=
  fun n => if h : n < 2048 then Cert.QAttn.score Q K b ⟨n, h⟩ k else 0

theorem sCol_lt (b : Fin 8) (k : Fin 2048) (n : ℕ) (h : n < 2048) :
    sCol Q K b k n = Cert.QAttn.score Q K b ⟨n, h⟩ k := by
  simp only [sCol, dif_pos h]

theorem sCol_ge (b : Fin 8) (k : Fin 2048) (n : ℕ) (h : ¬ n < 2048) : sCol Q K b k n = 0 := by
  simp only [sCol, dif_neg h]

theorem sCol_fin (b : Fin 8) (k q : Fin 2048) : sCol Q K b k q.val = Cert.QAttn.score Q K b q k :=
  sCol_lt Q K b k q.val q.isLt

/-- A score of real entries is a real. -/
theorem score_real (finQ : ∀ i, ∃ x : ℝ, Q i = (x : EReal)) (finK : ∀ i, ∃ x : ℝ, K i = (x : EReal))
    (b : Fin 8) (q k : Fin 2048) : ∃ x : ℝ, Cert.QAttn.score Q K b q k = (x : EReal) := by
  choose fQ hfQ using finQ
  choose fK hfK using finK
  refine ⟨∑ d : Fin 1024, fQ (ix3 b q d) * fK (ix3 b k d), ?_⟩
  unfold Cert.QAttn.score
  refine (Finset.sum_congr rfl fun d _ => ?_).trans
    (Online.sum_mul_coe (fun d : Fin 1024 => fQ (ix3 b q d)) (fun d : Fin 1024 => fK (ix3 b k d)) Finset.univ)
  rw [hfQ, hfK]

/-- Every listed score is a real. -/
theorem sCol_real (finQ : ∀ i, ∃ x : ℝ, Q i = (x : EReal)) (finK : ∀ i, ∃ x : ℝ, K i = (x : EReal))
    (b : Fin 8) (k : Fin 2048) : ∀ n, ∃ x : ℝ, sCol Q K b k n = (x : EReal) := by
  intro n
  by_cases h : n < 2048
  · rw [sCol_lt Q K b k n h]
    exact score_real Q K finQ finK b ⟨n, h⟩ k
  · rw [sCol_ge Q K b k n h]
    exact ⟨0, EReal.coe_zero.symm⟩

/-- After all sixteen tiles the running maximum is the column's maximum. -/
theorem tM_colMax (finQ : ∀ i, ∃ x : ℝ, Q i = (x : EReal)) (finK : ∀ i, ∃ x : ℝ, K i = (x : EReal))
    (b : Fin 8) (k : Fin 2048) : tM (sCol Q K b k) 16 = Cert.QAttn.colMax Q K b k := by
  rw [tM_16 _ (sCol_real Q K finQ finK b k)]
  unfold Cert.QAttn.colMax
  exact Finset.sup_congr rfl fun q _ => sCol_fin Q K b k q

/-- After all sixteen tiles the running normaliser is the column's normaliser. -/
theorem tL_colSum (finQ : ∀ i, ∃ x : ℝ, Q i = (x : EReal)) (finK : ∀ i, ∃ x : ℝ, K i = (x : EReal))
    (b : Fin 8) (k : Fin 2048) : tL (sCol Q K b k) 16 = Cert.QAttn.colSum Q K b k := by
  rw [tL_16 _ (sCol_real Q K finQ finK b k), tM_colMax Q K finQ finK b k]
  unfold Cert.QAttn.colSum
  exact Finset.sum_congr rfl fun q _ => by rw [sCol_fin]

/-- One term of the output sum: with the final maximum and normaliser of the column, the shifted exponential
    times the reciprocal of the normaliser is the softmax weight. -/
theorem weight_term (V : SArr.Idx → EReal) (finQ : ∀ i, ∃ x : ℝ, Q i = (x : EReal))
    (finK : ∀ i, ∃ x : ℝ, K i = (x : EReal)) (b : Fin 8) (q k : Fin 2048) (d : Fin 1024) (sv mv lv vv : EReal)
    (hsv : sv = Cert.QAttn.score Q K b q k) (hmv : mv = tM (sCol Q K b k) 16)
    (hlv : lv = tL (sCol Q K b k) 16) (hvv : vv = V (ix3 b k d)) :
    (Ideal.exp (sv - mv) * Ideal.div 1 lv) * vv = Cert.QAttn.weight Q K b q k * V (ix3 b k d) := by
  subst hsv hmv hlv hvv
  obtain ⟨L, hL, e⟩ := tL_16_pos (sCol Q K b k) (sCol_real Q K finQ finK b k)
  rw [tL_colSum Q K finQ finK b k] at e
  rw [tM_colMax Q K finQ finK b k, tL_colSum Q K finQ finK b k]
  unfold Cert.QAttn.weight
  rw [e, Online.mul_one_div _ L (ne_of_gt hL)]

/-- A tile of scores, when the query block is rows `128·j + r` of batch `b` and the key block is batch `b`'s. -/
theorem pay3_sCol (x : Vec Ideal S1x128x1024 .f32) (y : Vec Ideal S1x2048x1024 .bf16) (b : Fin 8) (j : ℕ)
    (row : Fin 128 → Fin 2048) (hrow : ∀ r, (row r).val = 128 * j + r.val)
    (hx : ∀ (r : Fin 128) (d : Fin 1024), x (ix3 (0 : Fin 1) r d) = Q (ix3 b (row r) d))
    (hy : ∀ (k : Fin 2048) (d : Fin 1024), y (ix3 (0 : Fin 1) k d) = K (ix3 b k d))
    (r : Fin 128) (k : Fin 2048) :
    k0_pay3 (F := Ideal) x y (ix2 r k) = sCol Q K b k (128 * j + r.val) := by
  refine (pay3_apply x y r k).trans ?_
  rw [← hrow r, sCol_fin]
  unfold Cert.QAttn.score
  exact Finset.sum_congr rfl fun d _ => by rw [hx, hy]

end Column

/-! ## One first-pass step is one step of the recursion -/

/-- The running maximum after a tile whose scores are `s (128·j + r)`, from the maximum after `j` tiles. -/
theorem step_max (x : Vec Ideal S1x128x1024 .f32) (y : Vec Ideal S1x2048x1024 .bf16) (mo : Vec Ideal S1x2048 .f32)
    (s : ℕ → EReal) (j : ℕ) (k : Fin 2048)
    (hs : ∀ r : Fin 128, k0_pay3 (F := Ideal) x y (ix2 r k) = s (128 * j + r.val))
    (hmo : mo (ix2 (0 : Fin 1) k) = tM s j) :
    k0_pay7 (F := Ideal) x y mo (ix2 (0 : Fin 1) k) = tM s (j + 1) := by
  refine ((pay7_apply x y mo k).trans (pay5_apply x y mo k)).trans ?_
  rw [tM]
  exact congrArg₂ max hmo (Finset.sup_congr rfl fun r _ => hs r)

/-- The running normaliser after that tile, from the pair after `j` tiles. -/
theorem step_sum (x : Vec Ideal S1x128x1024 .f32) (y : Vec Ideal S1x2048x1024 .bf16) (mo lo : Vec Ideal S1x2048 .f32)
    (s : ℕ → EReal) (j : ℕ) (k : Fin 2048)
    (hs : ∀ r : Fin 128, k0_pay3 (F := Ideal) x y (ix2 r k) = s (128 * j + r.val))
    (hmo : mo (ix2 (0 : Fin 1) k) = tM s j) (hlo : lo (ix2 (0 : Fin 1) k) = tL s j) :
    k0_pay6 (F := Ideal) x y mo mo lo (ix2 (0 : Fin 1) k) = tL s (j + 1) := by
  have h5 : k0_pay5 (F := Ideal) x y mo (ix2 (0 : Fin 1) k) = tM s (j + 1) :=
    (pay7_apply x y mo k).symm.trans (step_max x y mo s j k hs hmo)
  refine (pay6_apply x y mo mo lo k).trans ?_
  rw [tL, h5, hmo, hlo]
  simp only [hs]

/-! ## The grid's points -/

/-- The batch of point `t`. -/
def bOf (t : Fin cfg0.N) : Fin 8 := ⟨t.val / 32, by have := t.isLt; have : cfg0.N = 256 := N_0; omega⟩

/-- The query row the query window's block holds at its row `r` at point `t`: tile `t % 32` during the first
    pass, the last tile during the second. -/
def qRow (t : Fin cfg0.N) (r : Fin 128) : Fin 2048 :=
  ⟨128 * (if t.val % 32 < 16 then t.val % 32 else 15) + r.val, by split <;> omega⟩

variable (m : (ℓ : Loc nD τ sig) → Buf (Elt Ideal) ℓ) (c : Dev nD)

/-- The query window's block at every point, as entries of `Q`. -/
def HQ (Q : SArr.Idx → EReal) : Prop :=
  ∀ (t : Fin cfg0.N) (r : Fin 128) (d : Fin 1024),
    (iblk m c 0 t : Vec Ideal S1x128x1024 .f32) (ix3 (0 : Fin 1) r d) = Q (ix3 (bOf t) (qRow t r) d)

/-- The key window's block at every point, as entries of `K`. -/
def HK (K : SArr.Idx → EReal) : Prop :=
  ∀ (t : Fin cfg0.N) (k : Fin 2048) (d : Fin 1024),
    (iblk m c 1 t : Vec Ideal S1x2048x1024 .bf16) (ix3 (0 : Fin 1) k d) = K (ix3 (bOf t) k d)

/-- The value window's block at every point, as entries of `V`. -/
def HV (V : SArr.Idx → EReal) : Prop :=
  ∀ (t : Fin cfg0.N) (k : Fin 2048) (d : Fin 1024),
    (iblk m c 2 t : Vec Ideal S1x2048x1024 .bf16) (ix3 (0 : Fin 1) k d) = V (ix3 (bOf t) k d)

variable (Q K V : SArr.Idx → EReal)

/-- The tile of scores of a first-pass point. -/
theorem tile_scores (hQ : HQ m c Q) (hK : HK m c K) (t : Fin cfg0.N) (ht : t.val % 32 < 16) (k : Fin 2048)
    (r : Fin 128) :
    k0_pay3 (F := Ideal) (iblk m c 0 t) (iblk m c 1 t) (ix2 r k)
      = sCol Q K (bOf t) k (128 * (t.val % 32) + r.val) :=
  pay3_sCol Q K (iblk m c 0 t) (iblk m c 1 t) (bOf t) (t.val % 32) (qRow t)
    (fun r => by
      show 128 * (if t.val % 32 < 16 then t.val % 32 else 15) + r.val = _
      rw [if_pos ht])
    (hQ t) (hK t) r k

/-- The stored tile of a first-pass point. -/
theorem sTile_apply (hQ : HQ m c Q) (hK : HK m c K) (t : Fin cfg0.N) (ht : t.val % 32 < 16) (r : Fin 128)
    (k : Fin 2048) : sTile m c t (ix2 r k) = sCol Q K (bOf t) k (128 * (t.val % 32) + r.val) := by
  unfold sTile
  exact (pay4_apply (iblk m c 0 t) (iblk m c 1 t) r k).trans (tile_scores m c Q K hQ hK t ht k r)

/-- One first-pass point takes the pair after `t % 32` tiles to the pair after one more. -/
theorem mlStep_apply (hQ : HQ m c Q) (hK : HK m c K) (t : Fin cfg0.N) (ht : t.val % 32 < 16)
    (p : Vec Ideal S1x2048 .f32 × Vec Ideal S1x2048 .f32) (k : Fin 2048)
    (h1 : p.1 (ix2 (0 : Fin 1) k) = tM (sCol Q K (bOf t) k) (t.val % 32))
    (h2 : p.2 (ix2 (0 : Fin 1) k) = tL (sCol Q K (bOf t) k) (t.val % 32)) :
    (mlStep m c t p).1 (ix2 (0 : Fin 1) k) = tM (sCol Q K (bOf t) k) (t.val % 32 + 1)
      ∧ (mlStep m c t p).2 (ix2 (0 : Fin 1) k) = tL (sCol Q K (bOf t) k) (t.val % 32 + 1) := by
  unfold mlStep
  exact ⟨step_max (iblk m c 0 t) (iblk m c 1 t) p.1 (sCol Q K (bOf t) k) (t.val % 32) k
      (tile_scores m c Q K hQ hK t ht k) h1,
    step_sum (iblk m c 0 t) (iblk m c 1 t) p.1 p.2 (sCol Q K (bOf t) k) (t.val % 32) k
      (tile_scores m c Q K hQ hK t ht k) h1 h2⟩

/-- The pair after a batch's first point. -/
theorem mlAt_first_apply (hQ : HQ m c Q) (hK : HK m c K) (n : ℕ) (hn : n < cfg0.N) (h : n % 32 = 0)
    (k : Fin 2048) :
    (mlAt m c n hn).1 (ix2 (0 : Fin 1) k) = tM (sCol Q K (bOf ⟨n, hn⟩) k) (min (n % 32 + 1) 16)
      ∧ (mlAt m c n hn).2 (ix2 (0 : Fin 1) k) = tL (sCol Q K (bOf ⟨n, hn⟩) k) (min (n % 32 + 1) 16) := by
  have e : mlAt m c n hn = mlStep m c ⟨n, hn⟩ (k0_pay1 (F := Ideal), k0_pay2 (F := Ideal)) :=
    mlAt_first m c ⟨n, hn⟩ h
  have hmin : min (n % 32 + 1) 16 = n % 32 + 1 := by omega
  rw [e, hmin]
  refine mlStep_apply m c Q K hQ hK ⟨n, hn⟩ (by show n % 32 < 16; omega)
    (k0_pay1 (F := Ideal), k0_pay2 (F := Ideal)) k ?_ ?_
  · show k0_pay1 (F := Ideal) (ix2 (0 : Fin 1) k) = tM _ (n % 32)
    rw [h]
    exact pay1_apply k
  · show k0_pay2 (F := Ideal) (ix2 (0 : Fin 1) k) = tL _ (n % 32)
    rw [h]
    exact pay2_apply k

/-- The pair of every column after every point. -/
theorem mlAt_apply_aux (hQ : HQ m c Q) (hK : HK m c K) (n : ℕ) : ∀ (hn : n < cfg0.N) (k : Fin 2048),
    (mlAt m c n hn).1 (ix2 (0 : Fin 1) k) = tM (sCol Q K (bOf ⟨n, hn⟩) k) (min (n % 32 + 1) 16)
      ∧ (mlAt m c n hn).2 (ix2 (0 : Fin 1) k) = tL (sCol Q K (bOf ⟨n, hn⟩) k) (min (n % 32 + 1) 16) := by
  induction n with
  | zero => exact fun hn k => mlAt_first_apply m c Q K hQ hK 0 hn rfl k
  | succ n ih =>
    intro hn k
    have hn' : n < cfg0.N := Nat.lt_of_succ_lt hn
    by_cases h0 : (n + 1) % 32 = 0
    · exact mlAt_first_apply m c Q K hQ hK (n + 1) hn h0 k
    · have hb : bOf ⟨n, hn'⟩ = bOf ⟨n + 1, hn⟩ := Fin.ext (by show n / 32 = (n + 1) / 32; omega)
      have ih' := ih hn' k
      rw [hb] at ih'
      by_cases h : (n + 1) % 32 < 16
      · have e : mlAt m c (n + 1) hn = mlStep m c ⟨n + 1, hn⟩ (mlAt m c n hn') :=
          mlAt_pass1 m c ⟨n + 1, hn⟩ h0 h
        have hm : min (n % 32 + 1) 16 = (n + 1) % 32 := by omega
        have hmin : min ((n + 1) % 32 + 1) 16 = (n + 1) % 32 + 1 := by omega
        rw [hm] at ih'
        rw [e, hmin]
        exact mlStep_apply m c Q K hQ hK ⟨n + 1, hn⟩ h (mlAt m c n hn') k ih'.1 ih'.2
      · have e : mlAt m c (n + 1) hn = mlAt m c n hn' :=
          mlAt_pass2 m c ⟨n + 1, hn⟩ (by show 16 ≤ (n + 1) % 32; omega)
        have hm : min (n % 32 + 1) 16 = min ((n + 1) % 32 + 1) 16 := by omega
        rw [hm] at ih'
        rw [e]
        exact ih'

/-- After point `t` the pair of column `k` is the recursion's after `min (t % 32 + 1) 16` tiles. -/
theorem mlAt_apply (hQ : HQ m c Q) (hK : HK m c K) (t : Fin cfg0.N) (k : Fin 2048) :
    (mlAt m c t.val t.isLt).1 (ix2 (0 : Fin 1) k) = tM (sCol Q K (bOf t) k) (min (t.val % 32 + 1) 16)
      ∧ (mlAt m c t.val t.isLt).2 (ix2 (0 : Fin 1) k) = tL (sCol Q K (bOf t) k) (min (t.val % 32 + 1) 16) :=
  mlAt_apply_aux m c Q K hQ hK t.val t.isLt k

/-- The output tile of a second-pass point holds the specified entries. -/
theorem out3_apply (hQ : HQ m c Q) (hK : HK m c K) (hV : HV m c V)
    (finQ : ∀ i, ∃ x : ℝ, Q i = (x : EReal)) (finK : ∀ i, ∃ x : ℝ, K i = (x : EReal))
    (t : Fin cfg0.N) (ht : 16 ≤ t.val % 32) (r : Fin 128) (d : Fin 1024) :
    out3 m c t (ix3 (0 : Fin 1) r d)
      = Cert.QAttn.outAt Q K V (bOf t) (⟨128 * (t.val % 32 - 16) + r.val, by omega⟩ : Fin 2048) d := by
  have hb : bOf (tileOf t) = bOf t := Fin.ext (by show (t.val - 16) / 32 = t.val / 32; omega)
  have hj : (tileOf t).val % 32 = t.val % 32 - 16 := by show (t.val - 16) % 32 = _; omega
  have hlt : (tileOf t).val % 32 < 16 := by rw [hj]; omega
  have h16 : min (t.val % 32 + 1) 16 = 16 := by omega
  have hq : 128 * (t.val % 32 - 16) + r.val < 2048 := by omega
  unfold out3
  refine (pay8_apply (sTile m c (tileOf t)) (mlAt m c t.val t.isLt).1 (mlAt m c t.val t.isLt).2
    (iblk m c 2 t) r d).trans ?_
  unfold Cert.QAttn.outAt
  refine Finset.sum_congr rfl fun k _ => ?_
  have hsv := sTile_apply m c Q K hQ hK (tileOf t) hlt r k
  rw [hb, hj] at hsv
  obtain ⟨hM, hL⟩ := mlAt_apply m c Q K hQ hK t k
  rw [h16] at hM hL
  exact weight_term Q K V finQ finK (bOf t) ⟨128 * (t.val % 32 - 16) + r.val, hq⟩ k d _ _ _ _
    (hsv.trans (sCol_lt Q K (bOf t) k _ hq)) hM hL (hV t k d)

end Cert.KernelIdeal.Body

end
-- ==== Proof.FiniteInputs.lean ====
/-
  From the precondition to "every entry is a real".

  The precondition is the conjunction, over the three argument arrays, of "every entry's absolute value
  is below +∞".  At the extended reals an absolute value `max x (−x)` is `⊤` exactly when `x` is
  `⊥` or `⊤`, so each conjunct says every entry of its array is a real number.
-/
import proofs.«152487_j11081015624289_2_alg».proof.Proof.Gen.Pre_finite_inputs
import Idealize.ShloMosaic.PureOps.Ideal
import Idealize.ShloMosaic.Lib.ReduceAll
import Idealize.ShloMosaic.Lib.ValueIdx

noncomputable section

namespace Cert.QAttn.Finite

open Idealize.ShloMosaic

/-- The result of a reduction over every axis has one index. -/
instance : Subsingleton Cert.Pre_finite_inputs.S_.Idx := ⟨fun a b => funext fun d => d.elim0⟩

/-- The f32 word `0x7F800000` (sign 0, all-ones exponent, fraction 0) is `+∞`. -/
theorem ofBits_pos_inf : Ideal.ofBits .f32 0x7F800000#32 = (⊤ : EReal) := by
  simp [Ideal.ofBits, Ideal.ieee]

/-- An extended real whose absolute value is strictly below `+∞` is a real. -/
theorem real_of_abs_lt (x : EReal)
    (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | coe r => exact ⟨r, rfl⟩
  | top => simp [Ideal.cmp] at h

/-- Under the precondition every entry of each of the three argument arrays is a real. -/
theorem finite_of_pre (x0 x1 x2 : FVec Ideal Cert.Pre_finite_inputs.S8x2048x1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧
      (∀ i, ∃ r : ℝ, x2 i = (r : EReal)) := by
  have h0 := congrFun h ValueIdx.ix0
  dsimp only [Cert.Pre_finite_inputs.fn] at h0
  obtain ⟨h01, e2⟩ := IntOp.andi_eq_one.1 h0
  obtain ⟨e0, e1⟩ := IntOp.andi_eq_one.1 h01
  refine ⟨fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)

end Cert.QAttn.Finite

end
-- ==== Proof.KIValue.lean ====
/-
  The result array after the run is the specification.

  On device `c` let `Q`, `K`, `V` be the three argument arrays.  At every point the query window's block is
  rows of `Q`, the key window's block is the batch's rows of `K` and the value window's block the batch's rows
  of `V`; under the precondition every entry of `Q` and of `K` is a real.  So every second-pass point leaves
  in the result window the specified entries `out Q K V` of its 128 rows, and the blocks written back tile the
  result array: after the last point it is `out Q K V`.
-/
import proofs.«152487_j11081015624289_2_alg».proof.Proof.KIDat
import proofs.«152487_j11081015624289_2_alg».proof.Proof.KIBlocks
import proofs.«152487_j11081015624289_2_alg».proof.Proof.KIColumns
import proofs.«152487_j11081015624289_2_alg».proof.Proof.FiniteInputs
import proofs.«152487_j11081015624289_2_alg».proof.Defs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- After the last point the result window's array is the specification's `out` of the three arguments. -/
theorem final3 (m : (ℓ : Loc nD τ sig) → Buf (Elt Ideal) ℓ)
    (hpre : Cert.Pre_KernelIdeal (hPre_finite_inputs := Cert.Pre_finite_inputs.Gen.facts) m) (c : Dev nD) :
    (dats (F := Ideal) m 0 c).arrAt 3 cfg0.N
      = Cert.QAttn.out (m ((c.tc : Thread nD τ).loc main_arg0)) (m ((c.tc : Thread nD τ).loc main_arg1))
          (m ((c.tc : Thread nD τ).loc main_arg2)) := by
  have hQ : HQ m c (m ((c.tc : Thread nD τ).loc main_arg0)) := fun t r d => iblk0_apply m c t r d
  have hK : HK m c (m ((c.tc : Thread nD τ).loc main_arg1)) := fun t k d => iblk1_apply m c t k d
  have hV : HV m c (m ((c.tc : Thread nD τ).loc main_arg2)) := fun t k d => iblk2_apply m c t k d
  obtain ⟨fin0, fin1, -⟩ := Cert.QAttn.Finite.finite_of_pre (m ((c.tc : Thread nD τ).loc main_arg0))
    (m ((c.tc : Thread nD τ).loc main_arg1)) (m ((c.tc : Thread nD τ).loc main_arg2)) (hpre c)
  refine arr3_final c (dats (F := Ideal) m 0 c)
    (Cert.QAttn.out (m ((c.tc : Thread nD τ).loc main_arg0)) (m ((c.tc : Thread nD τ).loc main_arg1))
      (m ((c.tc : Thread nD τ).loc main_arg2))) (fun t ht r d => ?_)
  rw [after0_3]
  exact out3_apply m c (m ((c.tc : Thread nD τ).loc main_arg0)) (m ((c.tc : Thread nD τ).loc main_arg1))
    (m ((c.tc : Thread nD τ).loc main_arg2)) hQ hK hV fin0 fin1 t ht r d

end Cert.KernelIdeal.Body

end
-- ==== Proof.RefSide.lean ====
/-
  The reference program's result as one function of the three argument arrays.

  Stage by stage the reference computes, for a batch `b`, query row `q`, key row `k` and feature `d`:
  the scores `∑_d Q[b,q,d] · K[b,k,d]`; the greatest score of each key column over the query rows (a fold of
  `max` from −∞, which is the supremum over the rows); the exponentials of the scores shifted by that maximum;
  their sum down each column; the quotient of the two; and the product of those weights with `V`.  That is the
  specification's `out`, term by term, on all extended reals: no finiteness is needed.
-/
import proofs.«152487_j11081015624289_2_alg».proof.Proof.Gen.ReferenceIdeal.Read
import proofs.«152487_j11081015624289_2_alg».proof.Proof.Gen.Pre_finite_inputs
import proofs.«152487_j11081015624289_2_alg».proof.Proof.Spec
import proofs.«152487_j11081015624289_2_alg».proof.Defs
import Idealize.ShloMosaic.Lib.ValueIdx
import Idealize.ShloMosaic.Lib.Pipeline.Value
import Idealize.ShloMosaic.PureOps.Reduce
import Idealize.ShloMosaic.PureOps.Ideal.Laws
import Idealize.ShloMosaic.Lib.StableHlo.Run

noncomputable section

open scoped BigOperators

namespace Cert.QAttn.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- An argument array, and every array of the argument shape. -/
abbrev Arr : Type := (⟨S8x2048x1024, .f32⟩ : BufTy).Contents (Elt Ideal)

/-! ## The two constants -/

/-- The word the maximum starts from denotes −∞. -/
theorem ofBits_negInf : Ideal.ofBits .f32 0xFF800000#32 = (⊥ : EReal) := by simp [Ideal.ofBits, Ideal.ieee]

/-! ## The scores -/

/-- The first product, at (b, q, k), is the score of query row `q` against key row `k`. -/
theorem v0_ix3 (x0 x1 : Arr) (b : Fin 8) (q k : Fin 2048) :
    val_main_v0 (F := Ideal) x0 x1 (ix3 b q k) = score x0 x1 b q k := by
  rw [val_main_v0_apply]
  unfold score
  refine Finset.sum_congr rfl fun d _ => ?_
  have el : lidx_main_v0 (ix3 b q k) d = ix3 b q d :=
    funext fun a => Fin.ext (by match a with | ⟨0, _⟩ => rfl | ⟨1, _⟩ => rfl | ⟨2, _⟩ => rfl)
  have er : ridx_main_v0 (ix3 b q k) d = ix3 b k d :=
    funext fun a => Fin.ext (by match a with | ⟨0, _⟩ => rfl | ⟨1, _⟩ => rfl | ⟨2, _⟩ => rfl)
  rw [el, er]

/-! ## The greatest score of a key column -/

/-- A fold of `max` from −∞ is the supremum. -/
theorem fold_max_bot {ι : Type} [DecidableEq ι] (s : Finset ι) (f : ι → EReal) :
    s.fold max (⊥ : EReal) f = s.sup f := by
  induction s using Finset.induction_on with
  | empty => rw [Finset.fold_empty, Finset.sup_empty]
  | insert a s ha ih => rw [Finset.fold_insert ha, Finset.sup_insert, ih]

/-- The reduced index (b, k) with query row `q` put back on the dropped axis is (b, q, k). -/
theorem lift_ix2 (h : S8x2048x2048.Reduces [1] S8x2048) (b : Fin 8) (k : Fin 2048) (q : Fin 2048) :
    h.lift (ix2 b k) q = ix3 b q k :=
  funext fun a => Fin.ext (by match a with | ⟨0, _⟩ => rfl | ⟨1, _⟩ => rfl | ⟨2, _⟩ => rfl)

/-- The fold of `max` from −∞ over the query rows is the supremum over them: at (b, k) the reduce is the column's
    greatest score. -/
theorem v1_ix2 (x0 x1 : Arr) (b : Fin 8) (k : Fin 2048) :
    val_main_v1 (F := Ideal) x0 x1 (ix2 b k) = colMax x0 x1 b k := by
  have h : S8x2048x2048.Reduces [1] S8x2048 := by decide
  unfold val_main_v1
  rw [Host.reduce_eq_fold_single FloatOps.maximumf _ _ reducesTo_S8x2048x2048_S8x2048_d1 h h_S_]
  have hf : (val_main_v0 (F := Ideal) x0 x1 ∘ h.lift (ix2 b k)) = fun q : Fin 2048 => score x0 x1 b q k :=
    funext fun q => (congrArg (val_main_v0 (F := Ideal) x0 x1) (lift_ix2 h b k q)).trans (v0_ix3 x0 x1 b q k)
  refine (congrArg (fun f => Finset.fold (FloatOps.maximumf (F := Ideal) (φ := .f32))
    (val_main_cst (F := Ideal) (Shape.Idx.first h_S_)) f (Finset.univ : Finset (Fin 2048))) hf).trans ?_
  show Finset.fold max (Ideal.ofBits .f32 0xFF800000#32) (fun q : Fin 2048 => score x0 x1 b q k) Finset.univ
    = (Finset.univ : Finset (Fin 2048)).sup fun q => score x0 x1 b q k
  rw [ofBits_negInf]
  exact fold_max_bot _ _

/-- The maximum with a splat of −∞ changes nothing. -/
theorem v3_ix2 (x0 x1 : Arr) (b : Fin 8) (k : Fin 2048) :
    val_main_v3 (F := Ideal) x0 x1 (ix2 b k) = colMax x0 x1 b k := by
  rw [val_main_v3_apply, val_main_v2_apply, val_main_cst_0_apply, v1_ix2]
  show max (Ideal.ofBits .f32 0xFF800000#32) _ = _
  rw [ofBits_negInf]
  exact max_bot_left _

/-- The column's maximum broadcast back over the query rows. -/
theorem v5_ix3 (x0 x1 : Arr) (b : Fin 8) (q k : Fin 2048) :
    val_main_v5 (F := Ideal) x0 x1 (ix3 b q k) = colMax x0 x1 b k := by
  rw [val_main_v5_apply, val_main_v4_apply]
  have e : idx_main_v4 (idx_main_v5 (ix3 b q k)) = ix2 b k :=
    funext fun a => Fin.ext (by match a with | ⟨0, _⟩ => rfl | ⟨1, _⟩ => rfl)
  rw [e, v3_ix2]

/-! ## The exponentials, their column sums, the weights -/

/-- The exponential of the score shifted by its column's maximum. -/
theorem v7_ix3 (x0 x1 : Arr) (b : Fin 8) (q k : Fin 2048) :
    val_main_v7 (F := Ideal) x0 x1 (ix3 b q k) = Ideal.exp (score x0 x1 b q k - colMax x0 x1 b k) := by
  rw [val_main_v7_apply, val_main_v6_apply, v0_ix3, v5_ix3]
  rfl

/-- The sum of a column's exponentials over the query rows, from zero. -/
theorem v8_ix2 (x0 x1 : Arr) (b : Fin 8) (k : Fin 2048) :
    val_main_v8 (F := Ideal) x0 x1 (ix2 b k) = colSum x0 x1 b k := by
  rw [val_main_v8_apply, val_main_cst_1_apply]
  show Ideal.ofBits .f32 0x00000000#32 + _ = _
  rw [Ideal.ofBits_zero_f32, zero_add]
  unfold colSum
  refine Finset.sum_congr rfl fun q _ => ?_
  have e : idx_main_v8 (ix2 b k) q = ix3 b q k :=
    funext fun a => Fin.ext (by match a with | ⟨0, _⟩ => rfl | ⟨1, _⟩ => rfl | ⟨2, _⟩ => rfl)
  rw [e, v7_ix3]

/-- The column's sum broadcast back over the query rows. -/
theorem v10_ix3 (x0 x1 : Arr) (b : Fin 8) (q k : Fin 2048) :
    val_main_v10 (F := Ideal) x0 x1 (ix3 b q k) = colSum x0 x1 b k := by
  rw [val_main_v10_apply, val_main_v9_apply]
  have e : idx_main_v9 (idx_main_v10 (ix3 b q k)) = ix2 b k :=
    funext fun a => Fin.ext (by match a with | ⟨0, _⟩ => rfl | ⟨1, _⟩ => rfl)
  rw [e, v8_ix2]

/-- The quotient is the softmax weight of query row `q` in key column `k`. -/
theorem v11_ix3 (x0 x1 : Arr) (b : Fin 8) (q k : Fin 2048) :
    val_main_v11 (F := Ideal) x0 x1 (ix3 b q k) = weight x0 x1 b q k := by
  rw [val_main_v11_apply, v7_ix3, v10_ix3]
  rfl

/-! ## The result -/

/-- The reference's last stage, index by index, is the specification. -/
theorem result_eq (x0 x1 x2 : (⟨Cert.ReferenceIdeal.S8x2048x1024, .f32⟩ : BufTy).Contents (Elt Ideal)) :
    Cert.ReferenceIdeal.Read.val_main_v12 (F := Ideal) x0 x1 x2 = Cert.QAttn.out x0 x1 x2 := by
  funext i
  obtain ⟨b, q, d, rfl⟩ : ∃ (b : Fin 8) (q : Fin 2048) (d : Fin 1024), i = ix3 b q d := ⟨i 0, i 1, i 2, eq_ix3 i⟩
  rw [val_main_v12_apply, out_ix3]
  unfold outAt
  refine Finset.sum_congr rfl fun k _ => ?_
  have el : lidx_main_v12 (ix3 b q d) k = ix3 b q k :=
    funext fun a => Fin.ext (by match a with | ⟨0, _⟩ => rfl | ⟨1, _⟩ => rfl | ⟨2, _⟩ => rfl)
  have er : ridx_main_v12 (ix3 b q d) k = ix3 b k d :=
    funext fun a => Fin.ext (by match a with | ⟨0, _⟩ => rfl | ⟨1, _⟩ => rfl | ⟨2, _⟩ => rfl)
  rw [el, er, v11_ix3]

/-- The reference's run with its result named by the specification. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v12)
          = Cert.QAttn.out (m' ((c.tc : Thread _ _).loc Cert.ReferenceIdeal.main_arg0)) (m' ((c.tc : Thread _ _).loc Cert.ReferenceIdeal.main_arg1)) (m' ((c.tc : Thread _ _).loc Cert.ReferenceIdeal.main_arg2))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)
      ∧ r.2.mem ((c.tc : Thread _ _).loc Cert.ReferenceIdeal.main_arg2) = m' ((c.tc : Thread _ _).loc Cert.ReferenceIdeal.main_arg2) :=
  (θ_run (Cert.ReferenceIdeal.defs (F := Ideal)) _ _).mono
    (fun _ h c => ⟨(h c).1.trans ((val_main_v12_eq _ _ _).trans (result_eq _ _ _)), (h c).2⟩)
    (Cert.ReferenceIdeal.Value.run (F := Ideal) m' ρ')

/-- The reference's frame conjunct: it runs and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

end Cert.QAttn.Ref

end
-- ==== Proof.KIClaims.lean ====
/-
  From the kernel's run to the claim that the kernel and the reference end with equal results.

  The kernel's run ends with every windowed array at what the write-backs left and every other array as the region
  found it.  The result array is the fourth window's; the first argument is the first window's and is never
  written; the other two arguments bypass the region.  So once the result array after the last point is known to be
  the specification's `out` of the three arguments, the kernel's run ends with `out` and unchanged arguments; the
  reference's run ends with `out` of its own arguments, which agree with the kernel's.
-/
import proofs.«152487_j11081015624289_2_alg».proof.Proof.KIDat
import proofs.«152487_j11081015624289_2_alg».proof.Proof.RefSide
import proofs.«152487_j11081015624289_2_alg».proof.Defs
import proofs.«152487_j11081015624289_2_alg».proof.Proof.Gen.Pre_finite_inputs

set_option maxRecDepth 16384

noncomputable section

namespace Cert.QAttn.Claims

open Cert.KernelIdeal Cert.KernelIdeal.Gen Cert.KernelIdeal.Body Idealize.ShloMosaic Idealize.ShloMosaic.TcCoe Idealize.SL.Sem

/-- The kernel's run, read: the result array at the specification's `out` of the arguments (given that the result
    window's array after the last point is `out`), the arguments unchanged. -/
theorem kernel_post (m : (ℓ : Loc nD τ sig) → Buf (Elt Ideal) ℓ) (ρ : Dev nD → PrngReg)
    (hfinal : ∀ c : Dev nD, (dats (F := Ideal) m 0 c).arrAt 3 cfg0.N
      = Cert.QAttn.out (m ((c.tc : Thread nD τ).loc main_arg0)) (m ((c.tc : Thread nD τ).loc main_arg1)) (m ((c.tc : Thread nD τ).loc main_arg2)))
    (h : θ_run defs (onTc (τ := τ) (main (F := Ideal))) (s₀ m ρ) (Pipeline.FramePost cfgs (dats (F := Ideal) m) 0 (V m))) :
    θ_run defs (onTc (τ := τ) (main (F := Ideal))) ⟨m, fun _ => 0, ρ⟩ (fun r => ∀ c : Dev nD,
      r.2.mem ((c.tc : Thread nD τ).loc main_v2)
          = Cert.QAttn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (hfinal c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-- The algebraic claim, from the kernel's frame run and the result window's final array: both programs end with the
    specification's `out` of arguments that agree. -/
theorem algebraic_of
    (hfinal : ∀ (m : (ℓ : Loc nD τ sig) → Buf (Elt Ideal) ℓ), Cert.Pre_KernelIdeal (hPre_finite_inputs := Cert.Pre_finite_inputs.Gen.facts) m →
      ∀ c : Dev nD, (dats (F := Ideal) m 0 c).arrAt 3 cfg0.N
        = Cert.QAttn.out (m ((c.tc : Thread nD τ).loc main_arg0)) (m ((c.tc : Thread nD τ).loc main_arg1)) (m ((c.tc : Thread nD τ).loc main_arg2)))
    (hrun : ∀ (m : (ℓ : Loc nD τ sig) → Buf (Elt Ideal) ℓ) (ρ : Dev nD → PrngReg),
      θ_run defs (onTc (τ := τ) (main (F := Ideal))) (s₀ m ρ) (Pipeline.FramePost cfgs (dats (F := Ideal) m) 0 (V m))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.QAttn.out (m ((c.tc : Thread nD τ).loc main_arg0)) (m ((c.tc : Thread nD τ).loc main_arg1))
    (m ((c.tc : Thread nD τ).loc main_arg2)), kernel_post m ρ (hfinal m hpre) (hrun m ρ), ?_⟩
  refine (θ_run Cert.ReferenceIdeal.defs _ _).mono (fun _ h c => ⟨(h c).1.trans ?_, (h c).2⟩) (Cert.QAttn.Ref.run m' ρ')
  rw [(hagree c).1, (hagree c).2.1, (hagree c).2.2]

end Cert.QAttn.Claims

end
-- ==== Proof.lean ====
/-
  Attention whose softmax runs over the QUERY axis: for each batch, scores = Q·Kᵀ, each key column of the
  scores is normalised over all query rows (shifted by the column's maximum), and the weights multiply V.

  The kernel makes two passes over the sixteen 128-row query tiles of a batch.  The first pass computes each
  tile of scores once, keeps it in a scratch matrix, and folds it into a running column maximum and a running
  normaliser, rescaling the normaliser by exp (old maximum − new maximum) whenever the maximum grows; after the
  sixteenth tile these are the whole column's maximum and normaliser.  The second pass reads each score tile
  back, forms exp (score − maximum) · (1 / normaliser) and multiplies by the value block.  On the extended
  reals, with finite inputs, every score is a real, so the rescaling identity
  exp (a − b) · ∑ exp (s − a) = ∑ exp (s − b) holds term by term and multiplying by the reciprocal of the
  positive normaliser is dividing by it: the kernel's result is the reference's, entry by entry
  (Proof/Spec.lean states that function once; Proof/RefSide.lean shows the reference computes it,
  Proof/KIColumns.lean and Proof/KIValue.lean that the kernel does).

  The frames of the two kernel programs come from one argument, written for any float instance: the proof
  data names what every buffer holds after every grid point (Proof/KIState.lean, Proof/KIDat.lean), and the body
  is run once per case of its branches — a batch's first tile, the other first-pass tiles, the second pass
  (Proof/KIRunA.lean, KIRunB.lean, KIRunC.lean; Proof/KIBody.lean; the same for the word-level program in the
  KB… modules).  The reference's frame is its run with the result dropped.  Nothing was rewritten by the
  idealization, so the preservation claim is trivial.
-/
import proofs.«152487_j11081015624289_2_alg».proof.Defs
import proofs.«152487_j11081015624289_2_alg».proof.Proof.Gen.Kernel
import proofs.«152487_j11081015624289_2_alg».proof.Proof.Gen.KernelIdeal
import proofs.«152487_j11081015624289_2_alg».proof.Proof.Gen.ReferenceIdeal
import proofs.«152487_j11081015624289_2_alg».proof.Proof.Gen.Pre_finite_inputs
import proofs.«152487_j11081015624289_2_alg».proof.Proof.KBBody
import proofs.«152487_j11081015624289_2_alg».proof.Proof.KIBody
import proofs.«152487_j11081015624289_2_alg».proof.Proof.KIValue
import proofs.«152487_j11081015624289_2_alg».proof.Proof.KIClaims
import proofs.«152487_j11081015624289_2_alg».proof.Proof.RefSide
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- On the extended reals, from memories agreeing on the three arguments, the kernel and the reference both end with the
    result array at the specification `Cert.QAttn.out` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  Cert.QAttn.Claims.algebraic_of (fun m hpre c => Cert.KernelIdeal.Body.final3 m hpre c) (fun m ρ => Cert.KernelIdeal.Body.run_main m ρ)

theorem claim : Cert.Claim :=
  ⟨Cert.Kernel.Gen.facts, Cert.KernelIdeal.Gen.facts, Cert.ReferenceIdeal.Gen.facts, Cert.Pre_finite_inputs.Gen.facts,
    frame_k, frame_ki, Cert.QAttn.Ref.frame_ri, trivial, algebraic⟩

end Cert.Proof

end
